-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x64 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S1x128 : Shape := ⟨2, ![1, 128]⟩
abbrev S2000x128 : Shape := ⟨2, ![2000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 239
  | .vmem => 30
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S1x128, .f32⟩
  | 17 => ⟨S50000x128, .f32⟩
  | 18 => ⟨S50000, .i32⟩
  | 19 => ⟨S850000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128, .f32⟩
  | 73 => ⟨S50000x128, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x128, .f32⟩
  | 115 => ⟨S850000x1, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000, .i32⟩
  | 3 => ⟨S850000, .i32⟩
  | 4 => ⟨S850000, .i32⟩
  | 5 => ⟨S_, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .f32⟩
  | 14 => ⟨S50000, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000, .f32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000x128, .f32⟩
  | 43 => ⟨S850000x1, .f32⟩
  | 44 => ⟨S850000x128, .f32⟩
  | 45 => ⟨S850000x128, .f32⟩
  | 46 => ⟨S_, .f32⟩
  | 47 => ⟨S50000x128, .f32⟩
  | 48 => ⟨S850000x1, .i32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S1x128, .f32⟩
  | 57 => ⟨S50000x128, .f32⟩
  | 58 => ⟨S50000, .i32⟩
  | 59 => ⟨S850000, .i32⟩
  | 60 => ⟨S850000, .i32⟩
  | 61 => ⟨S_, .f32⟩
  | 62 => ⟨S850000, .f32⟩
  | 63 => ⟨S_, .f32⟩
  | 64 => ⟨S50000, .f32⟩
  | 65 => ⟨S850000x1, .i32⟩
  | 66 => ⟨S50000, .f32⟩
  | 67 => ⟨S_, .f32⟩
  | 68 => ⟨S50000, .f32⟩
  | 69 => ⟨S50000, .f32⟩
  | 70 => ⟨S50000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x128, .f32⟩
  | 99 => ⟨S850000x1, .f32⟩
  | 100 => ⟨S850000x128, .f32⟩
  | 101 => ⟨S850000x128, .f32⟩
  | 102 => ⟨S_, .f32⟩
  | 103 => ⟨S50000x128, .f32⟩
  | 104 => ⟨S850000x1, .i32⟩
  | 105 => ⟨S50000x128, .f32⟩
  | 106 => ⟨S1x128, .f32⟩
  | 107 => ⟨S50000x128, .f32⟩
  | 108 => ⟨S50000x128, .f32⟩
  | 109 => ⟨S1x64, .f32⟩
  | 110 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call0_cst : Ref sig .tc := ⟨.hbm, 69, rfl⟩
abbrev main_call0_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call1_cst : Ref sig .tc := ⟨.hbm, 125, rfl⟩
abbrev main_call1_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_cst_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_20 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_21 : Ref sig .tc := ⟨.hbm, 143, rfl⟩
abbrev main_v104 : Ref sig .tc := ⟨.hbm, 144, rfl⟩
abbrev main_v105 : Ref sig .tc := ⟨.hbm, 145, rfl⟩
abbrev main_c_22 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_23 : Ref sig .tc := ⟨.hbm, 152, rfl⟩
abbrev main_v111 : Ref sig .tc := ⟨.hbm, 153, rfl⟩
abbrev main_v112 : Ref sig .tc := ⟨.hbm, 154, rfl⟩
abbrev main_c_24 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_25 : Ref sig .tc := ⟨.hbm, 162, rfl⟩
abbrev main_v119 : Ref sig .tc := ⟨.hbm, 163, rfl⟩
abbrev main_v120 : Ref sig .tc := ⟨.hbm, 164, rfl⟩
abbrev main_c_26 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_27 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_call2_cst : Ref sig .tc := ⟨.hbm, 181, rfl⟩
abbrev main_call2_v0 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_28 : Ref sig .tc := ⟨.hbm, 189, rfl⟩
abbrev main_v141 : Ref sig .tc := ⟨.hbm, 190, rfl⟩
abbrev main_cst_29 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_30 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_c_31 : Ref sig .tc := ⟨.hbm, 199, rfl⟩
abbrev main_v148 : Ref sig .tc := ⟨.hbm, 200, rfl⟩
abbrev main_v149 : Ref sig .tc := ⟨.hbm, 201, rfl⟩
abbrev main_c_32 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_33 : Ref sig .tc := ⟨.hbm, 208, rfl⟩
abbrev main_v155 : Ref sig .tc := ⟨.hbm, 209, rfl⟩
abbrev main_v156 : Ref sig .tc := ⟨.hbm, 210, rfl⟩
abbrev main_c_34 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_c_35 : Ref sig .tc := ⟨.hbm, 218, rfl⟩
abbrev main_v163 : Ref sig .tc := ⟨.hbm, 219, rfl⟩
abbrev main_v164 : Ref sig .tc := ⟨.hbm, 220, rfl⟩
abbrev main_c_36 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_37 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v91) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v93) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v135) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v136) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v137) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v178) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v179) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v180) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 237
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x128, .f32⟩
  | 113 => ⟨S850000x1, .f32⟩
  | 114 => ⟨S850000x128, .f32⟩
  | 115 => ⟨S850000x128, .f32⟩
  | 116 => ⟨S_, .f32⟩
  | 117 => ⟨S50000x128, .f32⟩
  | 118 => ⟨S850000x1, .i32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S50000, .i32⟩
  | _ => ⟨S50000x128, .f32⟩

abbrev hbmTy0_1 (i : Nat) : BufTy := match i % 128 with
  | 0 => ⟨S850000, .i32⟩
  | 1 => ⟨S850000, .i32⟩
  | 2 => ⟨S_, .f32⟩
  | 3 => ⟨S850000, .f32⟩
  | 4 => ⟨S_, .f32⟩
  | 5 => ⟨S50000, .f32⟩
  | 6 => ⟨S850000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000x128, .f32⟩
  | 40 => ⟨S850000x1, .f32⟩
  | 41 => ⟨S850000x128, .f32⟩
  | 42 => ⟨S850000x128, .f32⟩
  | 43 => ⟨S_, .f32⟩
  | 44 => ⟨S50000x128, .f32⟩
  | 45 => ⟨S850000x1, .i32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S50000, .i32⟩
  | 55 => ⟨S850000, .i32⟩
  | 56 => ⟨S850000, .i32⟩
  | 57 => ⟨S_, .f32⟩
  | 58 => ⟨S850000, .f32⟩
  | 59 => ⟨S_, .f32⟩
  | 60 => ⟨S50000, .f32⟩
  | 61 => ⟨S850000x1, .i32⟩
  | 62 => ⟨S50000, .f32⟩
  | 63 => ⟨S_, .f32⟩
  | 64 => ⟨S50000, .f32⟩
  | 65 => ⟨S50000, .f32⟩
  | 66 => ⟨S50000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .f32⟩
  | 85 => ⟨S850000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S50000x128, .f32⟩
  | 104 => ⟨S50000x128, .f32⟩
  | 105 => ⟨S50000x64, .f32⟩
  | 106 => ⟨S1x64, .f32⟩
  | 107 => ⟨S50000x64, .f32⟩
  | 108 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call1_cst : Ref sig .tc := ⟨.hbm, 123, rfl⟩
abbrev main_call1_v0 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_cst_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_21 : Ref sig .tc := ⟨.hbm, 140, rfl⟩
abbrev main_v101 : Ref sig .tc := ⟨.hbm, 141, rfl⟩
abbrev main_v102 : Ref sig .tc := ⟨.hbm, 142, rfl⟩
abbrev main_c_22 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_23 : Ref sig .tc := ⟨.hbm, 149, rfl⟩
abbrev main_v108 : Ref sig .tc := ⟨.hbm, 150, rfl⟩
abbrev main_v109 : Ref sig .tc := ⟨.hbm, 151, rfl⟩
abbrev main_c_24 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_25 : Ref sig .tc := ⟨.hbm, 159, rfl⟩
abbrev main_v116 : Ref sig .tc := ⟨.hbm, 160, rfl⟩
abbrev main_v117 : Ref sig .tc := ⟨.hbm, 161, rfl⟩
abbrev main_c_26 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_27 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_call2_cst : Ref sig .tc := ⟨.hbm, 178, rfl⟩
abbrev main_call2_v0 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_28 : Ref sig .tc := ⟨.hbm, 185, rfl⟩
abbrev main_v137 : Ref sig .tc := ⟨.hbm, 186, rfl⟩
abbrev main_cst_29 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_30 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_c_31 : Ref sig .tc := ⟨.hbm, 195, rfl⟩
abbrev main_v144 : Ref sig .tc := ⟨.hbm, 196, rfl⟩
abbrev main_v145 : Ref sig .tc := ⟨.hbm, 197, rfl⟩
abbrev main_c_32 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_c_33 : Ref sig .tc := ⟨.hbm, 204, rfl⟩
abbrev main_v151 : Ref sig .tc := ⟨.hbm, 205, rfl⟩
abbrev main_v152 : Ref sig .tc := ⟨.hbm, 206, rfl⟩
abbrev main_c_34 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_c_35 : Ref sig .tc := ⟨.hbm, 214, rfl⟩
abbrev main_v159 : Ref sig .tc := ⟨.hbm, 215, rfl⟩
abbrev main_v160 : Ref sig .tc := ⟨.hbm, 216, rfl⟩
abbrev main_c_36 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_37 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run, read for its result.

  The program is five dense-projection pipelines among stretches of host operations. Its buffers' contents at each
  boundary are a fold from the launch memory: a host stretch applies its operations, a pipeline replaces its arrays
  by what its write-backs leave. The launch theorem for such a program asks for the program as that list of
  segments, for thread states that chain from one segment to the next, for a first thread state made from what a
  launch deals each core, and for a reading of the last thread state against the final memory. Here every thread
  state is "the core holds every buffer the program never scopes, whole, at the boundary's contents", so the states
  chain by reflexivity, the first one is the launch memory itself, and the last one pins every such buffer of the
  final memory at the last boundary's contents. Read at the result array that is what the last pipeline leaves in
  it; read at an argument array it is the launch contents, since nothing writes an argument.
-/
import proofs.«130606_j22308060136220_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement below, which
-- takes unfolding plain definitions in a metavariable's type
set_option backward.isDefEq.respectTransparency.types false in
/-- Every weakly fair execution terminates without a fault; the result array ends at the last boundary's contents
    of its buffer, and each argument array ends as launched. -/
theorem run_result : θ_run defs (onTc (τ := τ) (main (F := F))) ⟨m, fun _ => 0, ρ⟩ (fun r => ∀ c : Dev nD,
      r.2.mem ((c.tc : Thread nD τ).loc main_v180) = W16 m ρ c (Proc.devRef .tc main_v180)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    -- the program is the run of its segments
    (fun c Q => by rw [main_run m ρ c])
    -- no pipeline is launched twice
    (by simp only [segs, Pipeline.Seg.pipes_host, Pipeline.Seg.pipes_region, Pipeline.Seg.pipes_nil]; decide)
    -- nothing is owed at launch, no core waits on another, nothing is shared between cores
    (O₀ := 0) (hL := fun _ _ => rfl) (G := fun _ => iprop(emp))
    -- the pipelines' ghost state at launch: every cell at its launch tokens
    (u₀ := initOf (Pipeline.cells cfgs cellOf_inj) (Pipeline.launchToks cfgs cellOf_inj))
    (hu₀ := by
      iintro Htok
      imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      · iapply (show (BI.emp : sProp 𝕄) ⊢ bigSep Finset.univ (fun _ : Dev nD => (BI.emp : sProp 𝕄)) from by
          rw [BI.bigSep_emp_const])
        iempintro)
    -- the first thread state: the unscoped buffers at the launch memory; the last: at the last boundary's contents
    (T₀ := fun c => iprop(StableHlo.held (c : Thread nD τ) (Pipeline.ucRefs τ sig) (W0 m ρ c) ∗ R c)) (Tₙ := Tₙ m ρ)
    -- each segment is entered from what the one before leaves: the same contents by name, sixteen times and at the end
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl⟩)
    -- from what the launch deals a core: its unscoped buffers are those held at the launch memory, its generator
    -- register is at some state, and it owes nothing
    (hinit := by
      refine Pipeline.initEach L lv fun c => ?_
      rw [show unscopedBufs c (fun b => m ((c : Thread nD τ).loc b))
            = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _
        iexact Hreg
      · iexists ∅
        iexact Howes)
    -- what the last thread state says of a final memory: every unscoped buffer is at the last boundary's contents
    (QY := fun c s => ∀ b ∈ Pipeline.ucRefs τ sig, s.mem (((c : Thread nD τ)).1, b) = W16 m ρ c b)
    (hfin := fun c s' => by
      iintro ⟨⟨Hbufs, -⟩, Hmem⟩
      unfold StableHlo.held
      imodintro
      iapply (pointsTo_read_all (Pipeline.ucRefs τ sig) (fun b => (((c : Thread nD τ)).1, b)) (W16 m ρ c) s')
      isplitl [Hbufs] <;> iassumption)
    -- read at the result buffer, and at each argument, where the fold walks back to the launch memory
    (hQ := fun s h c =>
      ⟨h c _ (mem_uc main_v180 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.Run

end
-- ==== Proof.Net.lean ====
/-
  The network as a function of arrays.

  A graph-convolution layer takes the projected features `hw` ([50000, 128]), the two rows of the edge list
  (sources and destinations, 800000 each) and a bias ([128]). Every node gets one self-loop, so the endpoint lists
  have 850000 entries. A node's degree is the number of list entries whose destination is that node; the coefficient
  of entry `e` is `rsqrt (max (deg src_e) 1) · rsqrt (max (deg dst_e) 1)`; the layer's value at node `v` is the sum over
  the entries with destination `v` of `coef_e · hw[src_e]`, plus the bias. Negative indices wrap once by the node count,
  as jnp's indexing does. The network is four such layers, each after a dense projection, the first three followed
  by `max · 0`, and a linear head.

  The dense projection `d` and the head `hd` are parameters: the tiled program and the plain program compute
  them in two ways, and everything else here is the same operations in the same order in both.
-/
import proofs.«130606_j22308060136220_1_alg».proof.Proof.Gen.ReferenceIdeal

noncomputable section

namespace Cert.Net

open Cert.ReferenceIdeal Cert.ReferenceIdeal.Gen Idealize.ShloMosaic

variable {F : FTy → Type} [FloatOps F]

/-- Row 0 of the edge list: the sources. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the destinations. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- An endpoint row followed by one self-loop per node. -/
def withLoops (row : (⟨S800000, .i32⟩ : BufTy).Contents (Elt F)) : (⟨S850000, .i32⟩ : BufTy).Contents (Elt F) :=
  concatenate S850000 0 [⟨S800000, row⟩, ⟨S50000, (iotaInDim S50000 32 0)⟩] concatenates_S800000_S50000_S850000_d0

/-- An index list as a column of start indices, a negative index wrapped once by the node count. -/
def wrapIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- `rsqrt (max deg 1)` per node, the degree counted over the destination list. -/
def invSqrtDeg (d : (⟨S850000, .i32⟩ : BufTy).Contents (Elt F)) : (⟨S50000, .f32⟩ : BufTy).Contents (Elt F) :=
  Host.rsqrt (maximumf
    (Host.scatterAdd scatter_S50000_S850000x1_S850000_n_0_0_1
      (broadcastInDim S50000 ![] bcast_S_S50000 (constant S_ .f32 0x00000000#32))
      (broadcastInDim S850000x1 ![0] bcast_S850000_S850000x1_0 d)
      (broadcastInDim S850000 ![] bcast_S_S850000 (constant S_ .f32 0x3F800000#32)))
    (broadcastInDim S50000 ![] bcast_S_S50000 (constant S_ .f32 0x3F800000#32)))

/-- The coefficient of each list entry. -/
def coef (s d : (⟨S850000, .i32⟩ : BufTy).Contents (Elt F)) : (⟨S850000, .f32⟩ : BufTy).Contents (Elt F) :=
  mulf (Host.gather gather_S50000_S850000x1_S850000_n_0_n_n_0_1_1 (invSqrtDeg d) (wrapIdx s))
    (Host.gather gather_S50000_S850000x1_S850000_n_0_n_n_0_1_1 (invSqrtDeg d) (wrapIdx d))

/-- One layer after its projection: gather the source rows, scale each by its coefficient, add them into the
    destination rows, add the bias. -/
def layer (hw : (⟨S50000x128, .f32⟩ : BufTy).Contents (Elt F)) (srow drow : (⟨S800000, .i32⟩ : BufTy).Contents (Elt F))
    (b : (⟨S128, .f32⟩ : BufTy).Contents (Elt F)) : (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 (withLoops drow))
      (mulf (Host.gather gather_S50000x128_S850000x1_S850000x128_1_0_n_n_0_1_1128 hw (wrapIdx (withLoops srow)))
        (broadcastInDim S850000x128 ![0, 1] bcast_S850000x1_S850000x128_0_1
          (broadcastInDim S850000x1 ![0] bcast_S850000_S850000x1_0 (coef (withLoops srow) (withLoops drow))))))
    (broadcastInDim S50000x128 ![0, 1] bcast_S1x128_S50000x128_0_1 (broadcastInDim S1x128 ![1] bcast_S128_S1x128_1 b))

/-- `max · 0`, entry by entry. -/
def relu (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- The four layers and the head, over a dense projection `d` and a head `hd`. -/
def net
    (d : (⟨S50000x128, .f32⟩ : BufTy).Contents (Elt F) → (⟨S128x128, .f32⟩ : BufTy).Contents (Elt F) → (⟨S50000x128, .f32⟩ : BufTy).Contents (Elt F))
    (hd : (⟨S50000x128, .f32⟩ : BufTy).Contents (Elt F) → (⟨S128x64, .f32⟩ : BufTy).Contents (Elt F) → (⟨S64, .f32⟩ : BufTy).Contents (Elt F) → (⟨S50000x64, .f32⟩ : BufTy).Contents (Elt F))
    (x : (⟨S50000x128, .f32⟩ : BufTy).Contents (Elt F)) (e : (⟨S2x800000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F))
    (W4 : (⟨S128x128, .f32⟩ : BufTy).Contents (Elt F)) (b4 : (⟨S128, .f32⟩ : BufTy).Contents (Elt F))
    (Wh : (⟨S128x64, .f32⟩ : BufTy).Contents (Elt F)) (bh : (⟨S64, .f32⟩ : BufTy).Contents (Elt F)) :
    (⟨S50000x64, .f32⟩ : BufTy).Contents (Elt F) :=
  hd (layer (d (relu (layer (d (relu (layer (d (relu (layer (d x W1) (srcRow e) (dstRow e) b1)) W2) (srcRow e) (dstRow e) b2)) W3)
      (srcRow e) (dstRow e) b3)) W4) (srcRow e) (dstRow e) b4) Wh bh

/-- The plain program's dense projection: the host's matrix product. -/
def hostDense (l : (⟨S50000x128, .f32⟩ : BufTy).Contents (Elt F)) (r : (⟨S128x128, .f32⟩ : BufTy).Contents (Elt F)) :
    (⟨S50000x128, .f32⟩ : BufTy).Contents (Elt F) :=
  Host.dotGeneral dot_S50000x128_S128x128_S50000x128_1_0_0_1_n_n none l r

/-- The plain program's head: the host's matrix product plus the bias row, broadcast over the nodes. -/
def hostHead (h : (⟨S50000x128, .f32⟩ : BufTy).Contents (Elt F)) (W : (⟨S128x64, .f32⟩ : BufTy).Contents (Elt F))
    (b : (⟨S64, .f32⟩ : BufTy).Contents (Elt F)) : (⟨S50000x64, .f32⟩ : BufTy).Contents (Elt F) :=
  addf (Host.dotGeneral dot_S50000x128_S128x64_S50000x64_1_0_0_1_n_n none h W)
    (broadcastInDim S50000x64 ![0, 1] bcast_S1x64_S50000x64_0_1 (broadcastInDim S1x64 ![1] bcast_S64_S1x64_1 b))

end Cert.Net

end
-- ==== Proof.Prod.lean ====
/-
  A product of a rows-by-inner array with an inner-by-columns array, as a function of the index: entry (r, c) is the
  sum over the inner index k of x(r, k) · w(k, c), on the extended reals. With a bias row added: entry (r, c) of the
  product plus b(c). These are the two functions the dense projections and the head compute.
-/
import Mathlib
import Idealize.ShloMosaic.Lib.ValueIdx

noncomputable section

namespace Cert.Prod

open Idealize.ShloMosaic Idealize.ShloMosaic.ValueIdx

/-- Rows by columns. -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_ix2 {M K N : Nat} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- Rows by columns, plus a bias per column. -/
def mmBias {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => mm x w i + b (ix1 (i 1))

theorem mmBias_ix2 {M K N : Nat} (x : (⟨2, ![M, K]⟩ : Shape).Idx → EReal) (w : (⟨2, ![K, N]⟩ : Shape).Idx → EReal)
    (b : (⟨1, ![N]⟩ : Shape).Idx → EReal) (r : Fin M) (c : Fin N) :
    mmBias x w b (ix2 r c) = (∑ k : Fin K, x (ix2 r k) * w (ix2 k c)) + b (ix1 c) := rfl

/-- Rows by columns, plus a bias per column given as a one-row array. -/
def mmRow {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

theorem mmRow_ix2 {M K N : Nat} (x : (⟨2, ![M, K]⟩ : Shape).Idx → EReal) (w : (⟨2, ![K, N]⟩ : Shape).Idx → EReal)
    (b : (⟨2, ![1, N]⟩ : Shape).Idx → EReal) (r : Fin M) (c : Fin N) :
    mmRow x w b (ix2 r c) = (∑ k : Fin K, x (ix2 r k) * w (ix2 k c)) + b (ix2 (0 : Fin 1) c) := rfl

end Cert.Prod

end
-- ==== Proof.Host0.lean ====
/-
  The host operations before pipeline 0: the two rows of the edge list cut out and flattened (sources, destinations),
  and the first bias reshaped to a row. They write five buffers of their own; every other buffer holds after them
  what it held before.
-/
import proofs.«130606_j22308060136220_1_alg».proof.Proof.Gen.KernelIdeal.Launch
import proofs.«130606_j22308060136220_1_alg».proof.Proof.Net
import Idealize.ShloMosaic.Lib.StableHlo.Run

set_option maxRecDepth 16384

noncomputable section

namespace Cert.KernelIdeal.Host0

open Cert.KernelIdeal Cert.KernelIdeal.Gen Idealize.ShloMosaic Idealize.ShloMosaic.StableHlo

variable {F : FTy → Type} [FloatOps F]

/-- The buffers the stretch writes. -/
abbrev written : List (Ref sig .tc) := [main_v0, main_v1, main_v2, main_v3, main_v4]

theorem writes : (hostOps0 : List (HloOp τ sig (Elt F))).Forall fun op => op.writes ⊆ (written.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write holds after it what it held before. -/
theorem keep (V : Valuation τ sig (Elt F)) (b : Ref sig .tc) (h : b ∉ written) :
    after hostOps0 V (Proc.devRef .tc b) = V (Proc.devRef .tc b) :=
  after_of_writes_sub hostOps0 _ writes h

/-- The source row. -/
theorem src (V : Valuation τ sig (Elt F)) :
    after hostOps0 V (Proc.devRef .tc main_v1) = Cert.Net.srcRow (V (Proc.devRef .tc main_arg1)) := by
  after_results_simp
  rfl

/-- The destination row. -/
theorem dst (V : Valuation τ sig (Elt F)) :
    after hostOps0 V (Proc.devRef .tc main_v3) = Cert.Net.dstRow (V (Proc.devRef .tc main_arg1)) := by
  after_results_simp
  rfl

end Cert.KernelIdeal.Host0

end
-- ==== Proof.Host1.lean ====
/-
  The host operations between pipeline 0 and pipeline 1.

  They take pipeline 0's result, the two endpoint rows and layer 1's bias, and leave in the next feature
  buffer the layer's value followed by `max · 0`: the degrees, the coefficients, the gathered and scaled source
  rows added into the destination rows, the bias added. They write only buffers of their own, listed below, so
  every other buffer holds after them what it held before.
-/
import proofs.«130606_j22308060136220_1_alg».proof.Proof.Gen.KernelIdeal.Launch
import proofs.«130606_j22308060136220_1_alg».proof.Proof.Net
import Idealize.ShloMosaic.Lib.StableHlo.Run

set_option maxRecDepth 16384

noncomputable section

namespace Cert.KernelIdeal.Host1

open Cert.KernelIdeal Cert.KernelIdeal.Gen Idealize.ShloMosaic Idealize.ShloMosaic.StableHlo

variable {F : FTy → Type} [FloatOps F]

/-- The buffers the three stretches write. -/
abbrev written : List (Ref sig .tc) :=
  [main_v6, main_v7, main_v8, main_cst, main_v9, main_cst_0, main_v10, main_v11, main_v12, main_cst_1, main_v13, main_v14, main_v15, main_c, main_v16, main_v17, main_c_2, main_v18, main_v19, main_v20, main_v21, main_v22, main_c_3, main_v23, main_v24, main_c_4, main_v25, main_v26, main_v27, main_v28, main_v29, main_v30, main_c_5, main_v31, main_v32, main_c_6, main_v33, main_v34, main_v35, main_v36, main_v37, main_v38, main_v39, main_v40, main_cst_7, main_v41, main_v42, main_v43, main_v44, main_v45, main_v46, main_call0_cst, main_call0_v0, main_v47, main_v48]

theorem writes_a : (hostOps1 : List (HloOp τ sig (Elt F))).Forall fun op => op.writes ⊆ (written.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem writes_b : (hostOps1_1 : List (HloOp τ sig (Elt F))).Forall fun op => op.writes ⊆ (written.map (Proc.devRef (τ := τ) .tc)).toFinset := by
  simp only [hostOps1_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem writes_c : (hostOps1_2 : List (HloOp τ sig (Elt F))).Forall fun op => op.writes ⊆ (written.map (Proc.devRef (τ := τ) .tc)).toFinset := by
  simp only [hostOps1_2, List.Forall, StableHlo.nullary_writes, StableHlo.unary_writes, StableHlo.binary_writes, StableHlo.ternary_writes, StableHlo.reshape_writes, Finset.singleton_subset_iff, List.mem_toFinset]
  exact List.mem_map_of_mem (by decide)

/-- A buffer the stretches do not write holds after them what it held before. -/
theorem keep (V : Valuation τ sig (Elt F)) (b : Ref sig .tc) (h : b ∉ written) :
    after hostOps1_2 (after hostOps1_1 (after hostOps1 V)) (Proc.devRef .tc b) = V (Proc.devRef .tc b) :=
  (after_of_writes_sub hostOps1_2 _ writes_c h).trans
    ((after_of_writes_sub hostOps1_1 _ writes_b h).trans (after_of_writes_sub hostOps1 _ writes_a h))

/-- The next feature buffer after the stretches: the layer's value of the projected features, the endpoint rows
    and the bias, followed by `max · 0`. -/
theorem out (V : Valuation τ sig (Elt F)) :
    after hostOps1_2 (after hostOps1_1 (after hostOps1 V)) (Proc.devRef .tc main_v47)
      = Cert.Net.relu (Cert.Net.layer (V (Proc.devRef .tc main_v5)) (V (Proc.devRef .tc main_v1)) (V (Proc.devRef .tc main_v3))
          (V (Proc.devRef .tc main_arg3))) := by
  after_results_simp
  rfl

end Cert.KernelIdeal.Host1

end
-- ==== Proof.Host2.lean ====
/-
  The host operations between pipeline 1 and pipeline 2.

  They take pipeline 1's result, the two endpoint rows and layer 2's bias, and leave in the next feature
  buffer the layer's value followed by `max · 0`: the degrees, the coefficients, the gathered and scaled source
  rows added into the destination rows, the bias added. They write only buffers of their own, listed below, so
  every other buffer holds after them what it held before.
-/
import proofs.«130606_j22308060136220_1_alg».proof.Proof.Gen.KernelIdeal.Launch
import proofs.«130606_j22308060136220_1_alg».proof.Proof.Net
import Idealize.ShloMosaic.Lib.StableHlo.Run

set_option maxRecDepth 16384

noncomputable section

namespace Cert.KernelIdeal.Host2

open Cert.KernelIdeal Cert.KernelIdeal.Gen Idealize.ShloMosaic Idealize.ShloMosaic.StableHlo

variable {F : FTy → Type} [FloatOps F]

/-- The buffers the three stretches write. -/
abbrev written : List (Ref sig .tc) :=
  [main_v50, main_v51, main_v52, main_cst_8, main_v53, main_cst_9, main_v54, main_v55, main_v56, main_cst_10, main_v57, main_v58, main_v59, main_c_11, main_v60, main_v61, main_c_12, main_v62, main_v63, main_v64, main_v65, main_v66, main_c_13, main_v67, main_v68, main_c_14, main_v69, main_v70, main_v71, main_v72, main_v73, main_v74, main_c_15, main_v75, main_v76, main_c_16, main_v77, main_v78, main_v79, main_v80, main_v81, main_v82, main_v83, main_v84, main_cst_17, main_v85, main_v86, main_v87, main_v88, main_v89, main_v90, main_call1_cst, main_call1_v0, main_v91, main_v92]

theorem writes_a : (hostOps2 : List (HloOp τ sig (Elt F))).Forall fun op => op.writes ⊆ (written.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem writes_b : (hostOps2_1 : List (HloOp τ sig (Elt F))).Forall fun op => op.writes ⊆ (written.map (Proc.devRef (τ := τ) .tc)).toFinset := by
  simp only [hostOps2_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem writes_c : (hostOps2_2 : List (HloOp τ sig (Elt F))).Forall fun op => op.writes ⊆ (written.map (Proc.devRef (τ := τ) .tc)).toFinset := by
  simp only [hostOps2_2, List.Forall, StableHlo.nullary_writes, StableHlo.unary_writes, StableHlo.binary_writes, StableHlo.ternary_writes, StableHlo.reshape_writes, Finset.singleton_subset_iff, List.mem_toFinset]
  exact List.mem_map_of_mem (by decide)

/-- A buffer the stretches do not write holds after them what it held before. -/
theorem keep (V : Valuation τ sig (Elt F)) (b : Ref sig .tc) (h : b ∉ written) :
    after hostOps2_2 (after hostOps2_1 (after hostOps2 V)) (Proc.devRef .tc b) = V (Proc.devRef .tc b) :=
  (after_of_writes_sub hostOps2_2 _ writes_c h).trans
    ((after_of_writes_sub hostOps2_1 _ writes_b h).trans (after_of_writes_sub hostOps2 _ writes_a h))

/-- The next feature buffer after the stretches: the layer's value of the projected features, the endpoint rows
    and the bias, followed by `max · 0`. -/
theorem out (V : Valuation τ sig (Elt F)) :
    after hostOps2_2 (after hostOps2_1 (after hostOps2 V)) (Proc.devRef .tc main_v91)
      = Cert.Net.relu (Cert.Net.layer (V (Proc.devRef .tc main_v49)) (V (Proc.devRef .tc main_v1)) (V (Proc.devRef .tc main_v3))
          (V (Proc.devRef .tc main_arg5))) := by
  after_results_simp
  rfl

end Cert.KernelIdeal.Host2

end
-- ==== Proof.Host3.lean ====
/-
  The host operations between pipeline 2 and pipeline 3.

  They take pipeline 2's result, the two endpoint rows and layer 3's bias, and leave in the next feature
  buffer the layer's value followed by `max · 0`: the degrees, the coefficients, the gathered and scaled source
  rows added into the destination rows, the bias added. They write only buffers of their own, listed below, so
  every other buffer holds after them what it held before.
-/
import proofs.«130606_j22308060136220_1_alg».proof.Proof.Gen.KernelIdeal.Launch
import proofs.«130606_j22308060136220_1_alg».proof.Proof.Net
import Idealize.ShloMosaic.Lib.StableHlo.Run

set_option maxRecDepth 16384

noncomputable section

namespace Cert.KernelIdeal.Host3

open Cert.KernelIdeal Cert.KernelIdeal.Gen Idealize.ShloMosaic Idealize.ShloMosaic.StableHlo

variable {F : FTy → Type} [FloatOps F]

/-- The buffers the three stretches write. -/
abbrev written : List (Ref sig .tc) :=
  [main_v94, main_v95, main_v96, main_cst_18, main_v97, main_cst_19, main_v98, main_v99, main_v100, main_cst_20, main_v101, main_v102, main_v103, main_c_21, main_v104, main_v105, main_c_22, main_v106, main_v107, main_v108, main_v109, main_v110, main_c_23, main_v111, main_v112, main_c_24, main_v113, main_v114, main_v115, main_v116, main_v117, main_v118, main_c_25, main_v119, main_v120, main_c_26, main_v121, main_v122, main_v123, main_v124, main_v125, main_v126, main_v127, main_v128, main_cst_27, main_v129, main_v130, main_v131, main_v132, main_v133, main_v134, main_call2_cst, main_call2_v0, main_v135, main_v136]

theorem writes_a : (hostOps3 : List (HloOp τ sig (Elt F))).Forall fun op => op.writes ⊆ (written.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem writes_b : (hostOps3_1 : List (HloOp τ sig (Elt F))).Forall fun op => op.writes ⊆ (written.map (Proc.devRef (τ := τ) .tc)).toFinset := by
  simp only [hostOps3_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem writes_c : (hostOps3_2 : List (HloOp τ sig (Elt F))).Forall fun op => op.writes ⊆ (written.map (Proc.devRef (τ := τ) .tc)).toFinset := by
  simp only [hostOps3_2, List.Forall, StableHlo.nullary_writes, StableHlo.unary_writes, StableHlo.binary_writes, StableHlo.ternary_writes, StableHlo.reshape_writes, Finset.singleton_subset_iff, List.mem_toFinset]
  exact List.mem_map_of_mem (by decide)

/-- A buffer the stretches do not write holds after them what it held before. -/
theorem keep (V : Valuation τ sig (Elt F)) (b : Ref sig .tc) (h : b ∉ written) :
    after hostOps3_2 (after hostOps3_1 (after hostOps3 V)) (Proc.devRef .tc b) = V (Proc.devRef .tc b) :=
  (after_of_writes_sub hostOps3_2 _ writes_c h).trans
    ((after_of_writes_sub hostOps3_1 _ writes_b h).trans (after_of_writes_sub hostOps3 _ writes_a h))

/-- The next feature buffer after the stretches: the layer's value of the projected features, the endpoint rows
    and the bias, followed by `max · 0`. -/
theorem out (V : Valuation τ sig (Elt F)) :
    after hostOps3_2 (after hostOps3_1 (after hostOps3 V)) (Proc.devRef .tc main_v135)
      = Cert.Net.relu (Cert.Net.layer (V (Proc.devRef .tc main_v93)) (V (Proc.devRef .tc main_v1)) (V (Proc.devRef .tc main_v3))
          (V (Proc.devRef .tc main_arg7))) := by
  after_results_simp
  rfl

end Cert.KernelIdeal.Host3

end
-- ==== Proof.Host4.lean ====
/-
  The host operations between pipeline 3 and the head's pipeline.

  They take pipeline 3's result, the two endpoint rows and layer 4's bias, and leave in the head's feature buffer
  the fourth layer's value (no `max · 0` after the last layer), and in the head's bias buffer the head's bias
  reshaped to a row. They write only buffers of their own, listed below.
-/
import proofs.«130606_j22308060136220_1_alg».proof.Proof.Gen.KernelIdeal.Launch
import proofs.«130606_j22308060136220_1_alg».proof.Proof.Net
import Idealize.ShloMosaic.Lib.StableHlo.Run

set_option maxRecDepth 16384

noncomputable section

namespace Cert.KernelIdeal.Host4

open Cert.KernelIdeal Cert.KernelIdeal.Gen Idealize.ShloMosaic Idealize.ShloMosaic.StableHlo

variable {F : FTy → Type} [FloatOps F]

/-- The buffers the stretch writes. -/
abbrev written : List (Ref sig .tc) :=
  [main_v138, main_v139, main_v140, main_cst_28, main_v141, main_cst_29, main_v142, main_v143, main_v144, main_cst_30, main_v145, main_v146, main_v147, main_c_31, main_v148, main_v149, main_c_32, main_v150, main_v151, main_v152, main_v153, main_v154, main_c_33, main_v155, main_v156, main_c_34, main_v157, main_v158, main_v159, main_v160, main_v161, main_v162, main_c_35, main_v163, main_v164, main_c_36, main_v165, main_v166, main_v167, main_v168, main_v169, main_v170, main_v171, main_v172, main_cst_37, main_v173, main_v174, main_v175, main_v176, main_v177, main_v178, main_v179]

theorem writes : (hostOps4 : List (HloOp τ sig (Elt F))).Forall fun op => op.writes ⊆ (written.map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the stretch does not write holds after it what it held before. -/
theorem keep (V : Valuation τ sig (Elt F)) (b : Ref sig .tc) (h : b ∉ written) :
    after hostOps4 V (Proc.devRef .tc b) = V (Proc.devRef .tc b) :=
  after_of_writes_sub hostOps4 _ writes h

/-- The head's feature buffer after the stretch: the fourth layer's value. -/
theorem out (V : Valuation τ sig (Elt F)) :
    after hostOps4 V (Proc.devRef .tc main_v178)
      = Cert.Net.layer (V (Proc.devRef .tc main_v137)) (V (Proc.devRef .tc main_v1)) (V (Proc.devRef .tc main_v3))
          (V (Proc.devRef .tc main_arg9)) := by
  after_results_simp
  rfl

/-- The head's bias buffer after the stretch: the bias as a [1, 64] row. -/
theorem bias (V : Valuation τ sig (Elt F)) :
    after hostOps4 V (Proc.devRef .tc main_v179)
      = shapeCast S1x64 (V (Proc.devRef .tc main_arg11) : (⟨S64, .f32⟩ : BufTy).Contents (Elt F)) shapeCasts_S64_S1x64 := by
  after_results_simp
  rfl

end Cert.KernelIdeal.Host4

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Dense0.lean ====
/-
  What pipeline 0 leaves in its result array.

  The pipeline walks 25 blocks of 2000 rows. At block t the body reads rows 2000·t … 2000·t + 1999 of the feature
  array and the whole 128 × 128 weight array, and stores their matrix product into a zero accumulator. Entry (r, c)
  of that block product is the sum over k of x(2000·t + r, k) · w(k, c): the change of float format on the way into
  the product is the identity on the extended reals. So the block written back at t is block t of ONE function of the
  two arrays, rows by columns; the 25 blocks tile the 50000 rows, so the array ends holding that function.
-/
import proofs.«130606_j22308060136220_1_alg».proof.Proof.Gen.KernelIdeal.Frame
import proofs.«130606_j22308060136220_1_alg».proof.Proof.LibDot
import proofs.«130606_j22308060136220_1_alg».proof.Proof.Prod
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense0

open Cert.KernelIdeal Cert.KernelIdeal.Gen

theorem hz : (![0, 0] : Fin 2 → Nat) = fun _ => 0 := funext fun a => by fin_cases a <;> rfl

/-- The block product's dimension numbers contract the left operand's columns with the right operand's rows. -/
theorem plain : Cert.LibDot.Plain dot_S2000x128_S128x128_S2000x128_1_0_0_1_n_n where
  hrank := rfl
  hs := rfl
  hl0 := fun j q => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  hl1 := fun j q => dot_S2000x128_S128x128_S2000x128_1_0_0_1_n_n.lhsIdx_val_of_single rfl j q
  hr0 := fun j q => dot_S2000x128_S128x128_S2000x128_1_0_0_1_n_n.rhsIdx_val_of_single rfl j q
  hr1 := fun j q => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The body's stored value at entry (r, q) of the block: the row of the feature block against the column of the weights. -/
theorem pay_apply (x0 : Vec Ideal S2000x128 .f32) (x1 : Vec Ideal S128x128 .f32) (r : Fin 2000) (q : Fin 128) :
    k0_pay1 x0 x1 (ix2 r q) = ∑ k : Fin 128, x0 (ix2 r k) * x1 (ix2 k q) := by
  unfold k0_pay1
  exact Cert.LibDot.matmul_ix2 plain none _ _ r q

section

variable (V : (c : Dev nD) → (b : Ref sig .tc) → Buf (Elt Ideal) ((c : Thread nD τ).loc b))

/-- Where the windows' blocks sit, decided over the 25 points: the feature block and the result block at rows
    2000·t, the weight block at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

/-- The feature window's block at point t, at (r, k): the array at row 2000·t + r. -/
theorem xblk_apply (c : Dev nD) (t : Fin cfg0.N) (r : Fin 2000) (k : Fin 128) (i : S50000x128.Idx)
    (h0 : (i 0).val = t.val * 2000 + r.val) (h1 : (i 1).val = k.val) :
    (iblk0 V c 0 t : Vec Ideal S2000x128 .f32) (ix2 r k) = (V c main_arg0 : S50000x128.Idx → EReal) i := by
  obtain ⟨e0, e1, -, -, -, -⟩ := idx_facts t
  unfold iblk0
  rw [View.read_apply]
  show (V c main_arg0 : S50000x128.Idx → EReal) _ = (V c main_arg0 : S50000x128.Idx → EReal) i
  refine congrArg _ (funext fun a => Fin.ext ?_)
  match a with
  | ⟨0, _⟩ => show win0_0.index t (0 : Fin 2) * 2000 + 1 * r.val = (i 0).val; rw [e0, h0]; omega
  | ⟨1, _⟩ => show win0_0.index t (1 : Fin 2) * 128 + 1 * k.val = (i 1).val; rw [e1, h1]; omega

/-- The weight window's block at any point is the weight array. -/
theorem wblk_apply (c : Dev nD) (t : Fin cfg0.N) (k q : Fin 128) :
    (iblk0 V c 1 t : Vec Ideal S128x128 .f32) (ix2 k q) = (V c main_arg2 : S128x128.Idx → EReal) (ix2 k q) := by
  obtain ⟨-, -, e2, e3, -, -⟩ := idx_facts t
  unfold iblk0
  rw [View.read_apply]
  show (V c main_arg2 : S128x128.Idx → EReal) _ = (V c main_arg2 : S128x128.Idx → EReal) (ix2 k q)
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the rows-by-columns product of the two arrays. -/
theorem flushed_eq (c : Dev nD) (t : Fin cfg0.N) :
    (dat0 V c).flushed 3 t = ((cfg0.win 3).blk t).view.read (Elt Ideal)
      (Cert.Prod.mm (M := 50000) (K := 128) (N := 128) (V c main_arg0) (V c main_arg2)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz]
  obtain ⟨-, -, -, -, e4, e5⟩ := idx_facts t
  funext j
  obtain ⟨r, q, rfl⟩ : ∃ (r : Fin 2000) (q : Fin 128), j = ix2 r q := ⟨j 0, j 1, eq_ix2 j⟩
  have hr : r.val < 2000 := r.isLt
  have ht : t.val < 25 := lt_of_lt_of_eq t.isLt N_0
  show k0_pay1 (iblk0 V c 0 t) (iblk0 V c 1 t) (ix2 r q)
    = Cert.Prod.mm (M := 50000) (K := 128) (N := 128) (V c main_arg0) (V c main_arg2) (((cfg0.win 3).blk t).view.emb (ix2 r q))
  have hemb : ((cfg0.win 3).blk t).view.emb (ix2 r q) = ix2 (⟨t.val * 2000 + r.val, by omega⟩ : Fin 50000) q := by
    funext a; apply Fin.ext
    match a with
    | ⟨0, _⟩ => show win0_3.index t (0 : Fin 2) * 2000 + 1 * r.val = t.val * 2000 + r.val; rw [e4]; omega
    | ⟨1, _⟩ => show win0_3.index t (1 : Fin 2) * 128 + 1 * q.val = q.val; rw [e5]; omega
  rw [hemb, Cert.Prod.mm_ix2]
  refine (pay_apply _ _ r q).trans (Finset.sum_congr rfl fun k _ => ?_)
  rw [xblk_apply V c t r k (ix2 (⟨t.val * 2000 + r.val, by omega⟩ : Fin 50000) k) rfl rfl, wblk_apply V c t k q]

/-- An index of the array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- The result array after the pipeline: rows by columns of the feature array and the weight array as the
    pipeline found them. -/
theorem final (c : Dev nD) : (dat0 V c).arrAt 3 cfg0.N
    = Cert.Prod.mm (M := 50000) (K := 128) (N := 128) (V c main_arg0) (V c main_arg2) :=
  (dat0 V c).arrAt_eq_of_cover 3 _ (fun t _ => flushed_eq V c t) fun i => by
    have h0 : (i 0).val < 50000 := (i 0).isLt
    have h1 : (i 1).val < 128 := (i 1).isLt
    have hN : cfg0.N = 25 := N_0
    refine ⟨⟨(i 0).val / 2000, by rw [hN]; omega⟩, flush0_3 _, ?_⟩
    rw [mem_blk]
    obtain ⟨-, -, -, -, e4, e5⟩ := idx_facts ⟨(i 0).val / 2000, by rw [hN]; omega⟩
    intro a
    match a with
    | ⟨0, _⟩ => show win0_3.index _ (0 : Fin 2) * 2000 ≤ (i 0).val ∧ (i 0).val < win0_3.index _ (0 : Fin 2) * 2000 + 2000; rw [e4]; show (i 0).val / 2000 * 2000 ≤ (i 0).val ∧ (i 0).val < (i 0).val / 2000 * 2000 + 2000; omega
    | ⟨1, _⟩ => show win0_3.index _ (1 : Fin 2) * 128 ≤ (i 1).val ∧ (i 1).val < win0_3.index _ (1 : Fin 2) * 128 + 128; rw [e5]; omega

end

end Cert.KernelIdeal.Dense0

end
-- ==== Proof.Dense1.lean ====
/-
  What pipeline 1 leaves in its result array.

  The pipeline walks 25 blocks of 2000 rows. At block t the body reads rows 2000·t … 2000·t + 1999 of the feature
  array and the whole 128 × 128 weight array, and stores their matrix product into a zero accumulator. Entry (r, c)
  of that block product is the sum over k of x(2000·t + r, k) · w(k, c): the change of float format on the way into
  the product is the identity on the extended reals, and so is the body's cast of the block to its own shape. So the block written back at t is block t of ONE function of the
  two arrays, rows by columns; the 25 blocks tile the 50000 rows, so the array ends holding that function.
-/
import proofs.«130606_j22308060136220_1_alg».proof.Proof.Gen.KernelIdeal.Frame
import proofs.«130606_j22308060136220_1_alg».proof.Proof.LibDot
import proofs.«130606_j22308060136220_1_alg».proof.Proof.Prod
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen

theorem hz : (![0, 0] : Fin 2 → Nat) = fun _ => 0 := funext fun a => by fin_cases a <;> rfl

/-- The block product's dimension numbers contract the left operand's columns with the right operand's rows. -/
theorem plain : Cert.LibDot.Plain dot_S2000x128_S128x128_S2000x128_1_0_0_1_n_n where
  hrank := rfl
  hs := rfl
  hl0 := fun j q => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  hl1 := fun j q => dot_S2000x128_S128x128_S2000x128_1_0_0_1_n_n.lhsIdx_val_of_single rfl j q
  hr0 := fun j q => dot_S2000x128_S128x128_S2000x128_1_0_0_1_n_n.rhsIdx_val_of_single rfl j q
  hr1 := fun j q => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The body's stored value at entry (r, q) of the block: the row of the feature block against the column of the weights. -/
theorem pay_apply (x0 : Vec Ideal S2000x128 .f32) (x1 : Vec Ideal S128x128 .f32) (r : Fin 2000) (q : Fin 128) :
    k1_pay1 x0 x1 (ix2 r q) = ∑ k : Fin 128, x0 (ix2 r k) * x1 (ix2 k q) := by
  unfold k1_pay1
  simp only [shapeCast_self]
  exact Cert.LibDot.matmul_ix2 plain none _ _ r q

section

variable (V : (c : Dev nD) → (b : Ref sig .tc) → Buf (Elt Ideal) ((c : Thread nD τ).loc b))

/-- Where the windows' blocks sit, decided over the 25 points: the feature block and the result block at rows
    2000·t, the weight block at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_3.index t (0 : Fin 2) = t.val ∧ win1_3.index t (1 : Fin 2) = 0 :=
  (by decide +kernel : ∀ t : Fin grid1.N, _)

/-- The feature window's block at point t, at (r, k): the array at row 2000·t + r. -/
theorem xblk_apply (c : Dev nD) (t : Fin cfg1.N) (r : Fin 2000) (k : Fin 128) (i : S50000x128.Idx)
    (h0 : (i 0).val = t.val * 2000 + r.val) (h1 : (i 1).val = k.val) :
    (iblk1 V c 0 t : Vec Ideal S2000x128 .f32) (ix2 r k) = (V c main_v47 : S50000x128.Idx → EReal) i := by
  obtain ⟨e0, e1, -, -, -, -⟩ := idx_facts t
  unfold iblk1
  rw [View.read_apply]
  show (V c main_v47 : S50000x128.Idx → EReal) _ = (V c main_v47 : S50000x128.Idx → EReal) i
  refine congrArg _ (funext fun a => Fin.ext ?_)
  match a with
  | ⟨0, _⟩ => show win1_0.index t (0 : Fin 2) * 2000 + 1 * r.val = (i 0).val; rw [e0, h0]; omega
  | ⟨1, _⟩ => show win1_0.index t (1 : Fin 2) * 128 + 1 * k.val = (i 1).val; rw [e1, h1]; omega

/-- The weight window's block at any point is the weight array. -/
theorem wblk_apply (c : Dev nD) (t : Fin cfg1.N) (k q : Fin 128) :
    (iblk1 V c 1 t : Vec Ideal S128x128 .f32) (ix2 k q) = (V c main_arg4 : S128x128.Idx → EReal) (ix2 k q) := by
  obtain ⟨-, -, e2, e3, -, -⟩ := idx_facts t
  unfold iblk1
  rw [View.read_apply]
  show (V c main_arg4 : S128x128.Idx → EReal) _ = (V c main_arg4 : S128x128.Idx → EReal) (ix2 k q)
  refine congrArg _ (funext fun a => Fin.ext ?_)
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- What point t writes back is block t of the rows-by-columns product of the two arrays. -/
theorem flushed_eq (c : Dev nD) (t : Fin cfg1.N) :
    (dat1 V c).flushed 3 t = ((cfg1.win 3).blk t).view.read (Elt Ideal)
      (Cert.Prod.mm (M := 50000) (K := 128) (N := 128) (V c main_v47) (V c main_arg4)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz]
  obtain ⟨-, -, -, -, e4, e5⟩ := idx_facts t
  funext j
  obtain ⟨r, q, rfl⟩ : ∃ (r : Fin 2000) (q : Fin 128), j = ix2 r q := ⟨j 0, j 1, eq_ix2 j⟩
  have hr : r.val < 2000 := r.isLt
  have ht : t.val < 25 := lt_of_lt_of_eq t.isLt N_1
  show k1_pay1 (iblk1 V c 0 t) (iblk1 V c 1 t) (ix2 r q)
    = Cert.Prod.mm (M := 50000) (K := 128) (N := 128) (V c main_v47) (V c main_arg4) (((cfg1.win 3).blk t).view.emb (ix2 r q))
  have hemb : ((cfg1.win 3).blk t).view.emb (ix2 r q) = ix2 (⟨t.val * 2000 + r.val, by omega⟩ : Fin 50000) q := by
    funext a; apply Fin.ext
    match a with
    | ⟨0, _⟩ => show win1_3.index t (0 : Fin 2) * 2000 + 1 * r.val = t.val * 2000 + r.val; rw [e4]; omega
    | ⟨1, _⟩ => show win1_3.index t (1 : Fin 2) * 128 + 1 * q.val = q.val; rw [e5]; omega
  rw [hemb, Cert.Prod.mm_ix2]
  refine (pay_apply _ _ r q).trans (Finset.sum_congr rfl fun k _ => ?_)
  rw [xblk_apply V c t r k (ix2 (⟨t.val * 2000 + r.val, by omega⟩ : Fin 50000) k) rfl rfl, wblk_apply V c t k q]

/-- An index of the array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v49).slice (win1_3.rect t)).set ↔ _
  rw [View.set_slice_whole, Rect.mem_set_unit]
  exact Iff.rfl

/-- The result array after the pipeline: rows by columns of the feature array and the weight array as the
    pipeline found them. -/
theorem final (c : Dev nD) : (dat1 V c).arrAt 3 cfg1.N
    = Cert.Prod.mm (M := 50000) (K := 128) (N := 128) (V c main_v47) (V c main_arg4) :=
  (dat1 V c).arrAt_eq_of_cover 3 _ (fun t _ => flushed_eq V c t) fun i => by
    have h0 : (i 0).val < 50000 := (i 0).isLt
    have h1 : (i 1).val < 128 := (i 1).isLt
    have hN : cfg1.N = 25 := N_1
    refine ⟨⟨(i 0).val / 2000, by rw [hN]; omega⟩, flush1_3 _, ?_⟩
    rw [mem_blk]
    obtain ⟨-, -, -, -, e4, e5⟩ := idx_facts ⟨(i 0).val / 2000, by rw [hN]; omega⟩
    intro a
    match a with
    | ⟨0, _⟩ => show win1_3.index _ (0 : Fin 2) * 2000 ≤ (i 0).val ∧ (i 0).val < win1_3.index _ (0 : Fin 2) * 2000 + 2000; rw [e4]; show (i 0).val / 2000 * 2000 ≤ (i 0).val ∧ (i 0).val < (i 0).val / 2000 * 2000 + 2000; omega
    | ⟨1, _⟩ => show win1_3.index _ (1 : Fin 2) * 128 ≤ (i 1).val ∧ (i 1).val < win1_3.index _ (1 : Fin 2) * 128 + 128; rw [e5]; omega

end

end Cert.KernelIdeal.Dense1

end
-- ==== Proof.Dense2.lean ====
/-
  What pipeline 2 leaves in its result array.

  The pipeline walks 25 blocks of 2000 rows. At block t the body reads rows 2000·t … 2000·t + 1999 of the feature
  array and the whole 128 × 128 weight array, and stores their matrix product into a zero accumulator. Entry (r, c)
  of that block product is the sum over k of x(2000·t + r, k) · w(k, c): the change of float format on the way into
  the product is the identity on the extended reals, and so is the body's cast of the block to its own shape. So the block written back at t is block t of ONE function of the
  two arrays, rows by columns; the 25 blocks tile the 50000 rows, so the array ends holding that function.
-/
import proofs.«130606_j22308060136220_1_alg».proof.Proof.Gen.KernelIdeal.Frame
import proofs.«130606_j22308060136220_1_alg».proof.Proof.LibDot
import proofs.«130606_j22308060136220_1_alg».proof.Proof.Prod
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen

theorem hz : (![0, 0] : Fin 2 → Nat) = fun _ => 0 := funext fun a => by fin_cases a <;> rfl

/-- The block product's dimension numbers contract the left operand's columns with the right operand's rows. -/
theorem plain : Cert.LibDot.Plain dot_S2000x128_S128x128_S2000x128_1_0_0_1_n_n where
  hrank := rfl
  hs := rfl
  hl0 := fun j q => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  hl1 := fun j q => dot_S2000x128_S128x128_S2000x128_1_0_0_1_n_n.lhsIdx_val_of_single rfl j q
  hr0 := fun j q => dot_S2000x128_S128x128_S2000x128_1_0_0_1_n_n.rhsIdx_val_of_single rfl j q
  hr1 := fun j q => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The body's stored value at entry (r, q) of the block: the row of the feature block against the column of the weights. -/
theorem pay_apply (x0 : Vec Ideal S2000x128 .f32) (x1 : Vec Ideal S128x128 .f32) (r : Fin 2000) (q : Fin 128) :
    k2_pay1 x0 x1 (ix2 r q) = ∑ k : Fin 128, x0 (ix2 r k) * x1 (ix2 k q) := by
  unfold k2_pay1
  simp only [shapeCast_self]
  exact Cert.LibDot.matmul_ix2 plain none _ _ r q

section

variable (V : (c : Dev nD) → (b : Ref sig .tc) → Buf (Elt Ideal) ((c : Thread nD τ).loc b))

/-- Where the windows' blocks sit, decided over the 25 points: the feature block and the result block at rows
    2000·t, the weight block at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0 :=
  (by decide +kernel : ∀ t : Fin grid2.N, _)

/-- The feature window's block at point t, at (r, k): the array at row 2000·t + r. -/
theorem xblk_apply (c : Dev nD) (t : Fin cfg2.N) (r : Fin 2000) (k : Fin 128) (i : S50000x128.Idx)
    (h0 : (i 0).val = t.val * 2000 + r.val) (h1 : (i 1).val = k.val) :
    (iblk2 V c 0 t : Vec Ideal S2000x128 .f32) (ix2 r k) = (V c main_v91 : S50000x128.Idx → EReal) i := by
  obtain ⟨e0, e1, -, -, -, -⟩ := idx_facts t
  unfold iblk2
  rw [View.read_apply]
  show (V c main_v91 : S50000x128.Idx → EReal) _ = (V c main_v91 : S50000x128.Idx → EReal) i
  refine congrArg _ (funext fun a => Fin.ext ?_)
  match a with
  | ⟨0, _⟩ => show win2_0.index t (0 : Fin 2) * 2000 + 1 * r.val = (i 0).val; rw [e0, h0]; omega
  | ⟨1, _⟩ => show win2_0.index t (1 : Fin 2) * 128 + 1 * k.val = (i 1).val; rw [e1, h1]; omega

/-- The weight window's block at any point is the weight array. -/
theorem wblk_apply (c : Dev nD) (t : Fin cfg2.N) (k q : Fin 128) :
    (iblk2 V c 1 t : Vec Ideal S128x128 .f32) (ix2 k q) = (V c main_arg6 : S128x128.Idx → EReal) (ix2 k q) := by
  obtain ⟨-, -, e2, e3, -, -⟩ := idx_facts t
  unfold iblk2
  rw [View.read_apply]
  show (V c main_arg6 : S128x128.Idx → EReal) _ = (V c main_arg6 : S128x128.Idx → EReal) (ix2 k q)
  refine congrArg _ (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the rows-by-columns product of the two arrays. -/
theorem flushed_eq (c : Dev nD) (t : Fin cfg2.N) :
    (dat2 V c).flushed 3 t = ((cfg2.win 3).blk t).view.read (Elt Ideal)
      (Cert.Prod.mm (M := 50000) (K := 128) (N := 128) (V c main_v91) (V c main_arg6)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz]
  obtain ⟨-, -, -, -, e4, e5⟩ := idx_facts t
  funext j
  obtain ⟨r, q, rfl⟩ : ∃ (r : Fin 2000) (q : Fin 128), j = ix2 r q := ⟨j 0, j 1, eq_ix2 j⟩
  have hr : r.val < 2000 := r.isLt
  have ht : t.val < 25 := lt_of_lt_of_eq t.isLt N_2
  show k2_pay1 (iblk2 V c 0 t) (iblk2 V c 1 t) (ix2 r q)
    = Cert.Prod.mm (M := 50000) (K := 128) (N := 128) (V c main_v91) (V c main_arg6) (((cfg2.win 3).blk t).view.emb (ix2 r q))
  have hemb : ((cfg2.win 3).blk t).view.emb (ix2 r q) = ix2 (⟨t.val * 2000 + r.val, by omega⟩ : Fin 50000) q := by
    funext a; apply Fin.ext
    match a with
    | ⟨0, _⟩ => show win2_3.index t (0 : Fin 2) * 2000 + 1 * r.val = t.val * 2000 + r.val; rw [e4]; omega
    | ⟨1, _⟩ => show win2_3.index t (1 : Fin 2) * 128 + 1 * q.val = q.val; rw [e5]; omega
  rw [hemb, Cert.Prod.mm_ix2]
  refine (pay_apply _ _ r q).trans (Finset.sum_congr rfl fun k _ => ?_)
  rw [xblk_apply V c t r k (ix2 (⟨t.val * 2000 + r.val, by omega⟩ : Fin 50000) k) rfl rfl, wblk_apply V c t k q]

/-- An index of the array is in point t's block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v93).slice (win2_3.rect t)).set ↔ _
  rw [View.set_slice_whole, Rect.mem_set_unit]
  exact Iff.rfl

/-- The result array after the pipeline: rows by columns of the feature array and the weight array as the
    pipeline found them. -/
theorem final (c : Dev nD) : (dat2 V c).arrAt 3 cfg2.N
    = Cert.Prod.mm (M := 50000) (K := 128) (N := 128) (V c main_v91) (V c main_arg6) :=
  (dat2 V c).arrAt_eq_of_cover 3 _ (fun t _ => flushed_eq V c t) fun i => by
    have h0 : (i 0).val < 50000 := (i 0).isLt
    have h1 : (i 1).val < 128 := (i 1).isLt
    have hN : cfg2.N = 25 := N_2
    refine ⟨⟨(i 0).val / 2000, by rw [hN]; omega⟩, flush2_3 _, ?_⟩
    rw [mem_blk]
    obtain ⟨-, -, -, -, e4, e5⟩ := idx_facts ⟨(i 0).val / 2000, by rw [hN]; omega⟩
    intro a
    match a with
    | ⟨0, _⟩ => show win2_3.index _ (0 : Fin 2) * 2000 ≤ (i 0).val ∧ (i 0).val < win2_3.index _ (0 : Fin 2) * 2000 + 2000; rw [e4]; show (i 0).val / 2000 * 2000 ≤ (i 0).val ∧ (i 0).val < (i 0).val / 2000 * 2000 + 2000; omega
    | ⟨1, _⟩ => show win2_3.index _ (1 : Fin 2) * 128 ≤ (i 1).val ∧ (i 1).val < win2_3.index _ (1 : Fin 2) * 128 + 128; rw [e5]; omega

end

end Cert.KernelIdeal.Dense2

end
-- ==== Proof.Dense3.lean ====
/-
  What pipeline 3 leaves in its result array.

  The pipeline walks 25 blocks of 2000 rows. At block t the body reads rows 2000·t … 2000·t + 1999 of the feature
  array and the whole 128 × 128 weight array, and stores their matrix product into a zero accumulator. Entry (r, c)
  of that block product is the sum over k of x(2000·t + r, k) · w(k, c): the change of float format on the way into
  the product is the identity on the extended reals, and so is the body's cast of the block to its own shape. So the block written back at t is block t of ONE function of the
  two arrays, rows by columns; the 25 blocks tile the 50000 rows, so the array ends holding that function.
-/
import proofs.«130606_j22308060136220_1_alg».proof.Proof.Gen.KernelIdeal.Frame
import proofs.«130606_j22308060136220_1_alg».proof.Proof.LibDot
import proofs.«130606_j22308060136220_1_alg».proof.Proof.Prod
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense3

open Cert.KernelIdeal Cert.KernelIdeal.Gen

theorem hz : (![0, 0] : Fin 2 → Nat) = fun _ => 0 := funext fun a => by fin_cases a <;> rfl

/-- The block product's dimension numbers contract the left operand's columns with the right operand's rows. -/
theorem plain : Cert.LibDot.Plain dot_S2000x128_S128x128_S2000x128_1_0_0_1_n_n where
  hrank := rfl
  hs := rfl
  hl0 := fun j q => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  hl1 := fun j q => dot_S2000x128_S128x128_S2000x128_1_0_0_1_n_n.lhsIdx_val_of_single rfl j q
  hr0 := fun j q => dot_S2000x128_S128x128_S2000x128_1_0_0_1_n_n.rhsIdx_val_of_single rfl j q
  hr1 := fun j q => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The body's stored value at entry (r, q) of the block: the row of the feature block against the column of the weights. -/
theorem pay_apply (x0 : Vec Ideal S2000x128 .f32) (x1 : Vec Ideal S128x128 .f32) (r : Fin 2000) (q : Fin 128) :
    k3_pay1 x0 x1 (ix2 r q) = ∑ k : Fin 128, x0 (ix2 r k) * x1 (ix2 k q) := by
  unfold k3_pay1
  simp only [shapeCast_self]
  exact Cert.LibDot.matmul_ix2 plain none _ _ r q

section

variable (V : (c : Dev nD) → (b : Ref sig .tc) → Buf (Elt Ideal) ((c : Thread nD τ).loc b))

/-- Where the windows' blocks sit, decided over the 25 points: the feature block and the result block at rows
    2000·t, the weight block at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_3.index t (0 : Fin 2) = t.val ∧ win3_3.index t (1 : Fin 2) = 0 :=
  (by decide +kernel : ∀ t : Fin grid3.N, _)

/-- The feature window's block at point t, at (r, k): the array at row 2000·t + r. -/
theorem xblk_apply (c : Dev nD) (t : Fin cfg3.N) (r : Fin 2000) (k : Fin 128) (i : S50000x128.Idx)
    (h0 : (i 0).val = t.val * 2000 + r.val) (h1 : (i 1).val = k.val) :
    (iblk3 V c 0 t : Vec Ideal S2000x128 .f32) (ix2 r k) = (V c main_v135 : S50000x128.Idx → EReal) i := by
  obtain ⟨e0, e1, -, -, -, -⟩ := idx_facts t
  unfold iblk3
  rw [View.read_apply]
  show (V c main_v135 : S50000x128.Idx → EReal) _ = (V c main_v135 : S50000x128.Idx → EReal) i
  refine congrArg _ (funext fun a => Fin.ext ?_)
  match a with
  | ⟨0, _⟩ => show win3_0.index t (0 : Fin 2) * 2000 + 1 * r.val = (i 0).val; rw [e0, h0]; omega
  | ⟨1, _⟩ => show win3_0.index t (1 : Fin 2) * 128 + 1 * k.val = (i 1).val; rw [e1, h1]; omega

/-- The weight window's block at any point is the weight array. -/
theorem wblk_apply (c : Dev nD) (t : Fin cfg3.N) (k q : Fin 128) :
    (iblk3 V c 1 t : Vec Ideal S128x128 .f32) (ix2 k q) = (V c main_arg8 : S128x128.Idx → EReal) (ix2 k q) := by
  obtain ⟨-, -, e2, e3, -, -⟩ := idx_facts t
  unfold iblk3
  rw [View.read_apply]
  show (V c main_arg8 : S128x128.Idx → EReal) _ = (V c main_arg8 : S128x128.Idx → EReal) (ix2 k q)
  refine congrArg _ (funext fun a => Fin.ext ?_)
  match a with
  | ⟨0, _⟩ => show win3_1.index t (0 : Fin 2) * 128 + 1 * k.val = k.val; rw [e2]; omega
  | ⟨1, _⟩ => show win3_1.index t (1 : Fin 2) * 128 + 1 * q.val = q.val; rw [e3]; omega

/-- What point t writes back is block t of the rows-by-columns product of the two arrays. -/
theorem flushed_eq (c : Dev nD) (t : Fin cfg3.N) :
    (dat3 V c).flushed 3 t = ((cfg3.win 3).blk t).view.read (Elt Ideal)
      (Cert.Prod.mm (M := 50000) (K := 128) (N := 128) (V c main_v135) (V c main_arg8)) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x128) hz]
  obtain ⟨-, -, -, -, e4, e5⟩ := idx_facts t
  funext j
  obtain ⟨r, q, rfl⟩ : ∃ (r : Fin 2000) (q : Fin 128), j = ix2 r q := ⟨j 0, j 1, eq_ix2 j⟩
  have hr : r.val < 2000 := r.isLt
  have ht : t.val < 25 := lt_of_lt_of_eq t.isLt N_3
  show k3_pay1 (iblk3 V c 0 t) (iblk3 V c 1 t) (ix2 r q)
    = Cert.Prod.mm (M := 50000) (K := 128) (N := 128) (V c main_v135) (V c main_arg8) (((cfg3.win 3).blk t).view.emb (ix2 r q))
  have hemb : ((cfg3.win 3).blk t).view.emb (ix2 r q) = ix2 (⟨t.val * 2000 + r.val, by omega⟩ : Fin 50000) q := by
    funext a; apply Fin.ext
    match a with
    | ⟨0, _⟩ => show win3_3.index t (0 : Fin 2) * 2000 + 1 * r.val = t.val * 2000 + r.val; rw [e4]; omega
    | ⟨1, _⟩ => show win3_3.index t (1 : Fin 2) * 128 + 1 * q.val = q.val; rw [e5]; omega
  rw [hemb, Cert.Prod.mm_ix2]
  refine (pay_apply _ _ r q).trans (Finset.sum_congr rfl fun k _ => ?_)
  rw [xblk_apply V c t r k (ix2 (⟨t.val * 2000 + r.val, by omega⟩ : Fin 50000) k) rfl rfl, wblk_apply V c t k q]

/-- An index of the array is in point t's block iff each coordinate is in the block's range on its axis. -/
theorem mem_blk (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v137).slice (win3_3.rect t)).set ↔ _
  rw [View.set_slice_whole, Rect.mem_set_unit]
  exact Iff.rfl

/-- The result array after the pipeline: rows by columns of the feature array and the weight array as the
    pipeline found them. -/
theorem final (c : Dev nD) : (dat3 V c).arrAt 3 cfg3.N
    = Cert.Prod.mm (M := 50000) (K := 128) (N := 128) (V c main_v135) (V c main_arg8) :=
  (dat3 V c).arrAt_eq_of_cover 3 _ (fun t _ => flushed_eq V c t) fun i => by
    have h0 : (i 0).val < 50000 := (i 0).isLt
    have h1 : (i 1).val < 128 := (i 1).isLt
    have hN : cfg3.N = 25 := N_3
    refine ⟨⟨(i 0).val / 2000, by rw [hN]; omega⟩, flush3_3 _, ?_⟩
    rw [mem_blk]
    obtain ⟨-, -, -, -, e4, e5⟩ := idx_facts ⟨(i 0).val / 2000, by rw [hN]; omega⟩
    intro a
    match a with
    | ⟨0, _⟩ => show win3_3.index _ (0 : Fin 2) * 2000 ≤ (i 0).val ∧ (i 0).val < win3_3.index _ (0 : Fin 2) * 2000 + 2000; rw [e4]; show (i 0).val / 2000 * 2000 ≤ (i 0).val ∧ (i 0).val < (i 0).val / 2000 * 2000 + 2000; omega
    | ⟨1, _⟩ => show win3_3.index _ (1 : Fin 2) * 128 ≤ (i 1).val ∧ (i 1).val < win3_3.index _ (1 : Fin 2) * 128 + 128; rw [e5]; omega

end

end Cert.KernelIdeal.Dense3

end
-- ==== Proof.Dense4.lean ====
/-
  What the head's pipeline leaves in its result array.

  The pipeline walks 25 blocks of 2000 rows. At block t the body reads rows 2000·t … 2000·t + 1999 of the feature
  array, the whole 128 × 64 weight array and the 1 × 64 bias row, stores the block's matrix product into a zero
  accumulator and adds the bias row to every row. Entry (r, c) of the stored block is the sum over k of
  x(2000·t + r, k) · w(k, c), plus b(0, c): the changes of float format and the casts of a block to its own shape are
  the identity. So the block written back at t is block t of ONE function of the three arrays; the 25 blocks tile the
  50000 rows, so the array ends holding that function.
-/
import proofs.«130606_j22308060136220_1_alg».proof.Proof.Gen.KernelIdeal.Frame
import proofs.«130606_j22308060136220_1_alg».proof.Proof.LibDot
import proofs.«130606_j22308060136220_1_alg».proof.Proof.Prod
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense4

open Cert.KernelIdeal Cert.KernelIdeal.Gen

theorem hz : (![0, 0] : Fin 2 → Nat) = fun _ => 0 := funext fun a => by fin_cases a <;> rfl

/-- The block product's dimension numbers contract the left operand's columns with the right operand's rows. -/
theorem plain : Cert.LibDot.Plain dot_S2000x128_S128x64_S2000x64_1_0_0_1_n_n where
  hrank := rfl
  hs := rfl
  hl0 := fun j q => by
    unfold DotDims.lhsIdx
    rw [dif_neg (show ¬(0 : Fin S2000x128.rank) ∈ dot_S2000x128_S128x64_S2000x64_1_0_0_1_n_n.lhsBatch by decide),
      dif_pos (show (0 : Fin S2000x128.rank) ∈ dot_S2000x128_S128x64_S2000x64_1_0_0_1_n_n.lhsNonContracting by decide)]
    rfl
  hl1 := fun j q => dot_S2000x128_S128x64_S2000x64_1_0_0_1_n_n.lhsIdx_val_of_single rfl j q
  hr0 := fun j q => dot_S2000x128_S128x64_S2000x64_1_0_0_1_n_n.rhsIdx_val_of_single rfl j q
  hr1 := fun j q => by
    unfold DotDims.rhsIdx
    rw [dif_neg (show ¬(1 : Fin S128x64.rank) ∈ dot_S2000x128_S128x64_S2000x64_1_0_0_1_n_n.rhsBatch by decide),
      dif_pos (show (1 : Fin S128x64.rank) ∈ dot_S2000x128_S128x64_S2000x64_1_0_0_1_n_n.rhsNonContracting by decide)]
    rfl

/-- The body's stored value at entry (r, q) of the block: the row of the feature block against the column of the
    weights, plus the bias row's entry q. -/
theorem pay_apply (x0 : Vec Ideal S2000x128 .f32) (x1 : Vec Ideal S128x64 .f32) (x2 : Vec Ideal S1x64 .f32)
    (r : Fin 2000) (q : Fin 64) :
    k4_pay1 x0 x1 x2 (ix2 r q) = (∑ k : Fin 128, x0 (ix2 r k) * x1 (ix2 k q)) + x2 (ix2 (0 : Fin 1) q) := by
  unfold k4_pay1
  simp only [shapeCast_self]
  refine (addf_apply _ _ _).trans ?_
  exact congrArg₂ (· + ·) (Cert.LibDot.matmul_ix2 plain none _ _ r q)
    (broadcastTo_apply x2 broadcasts_S1x64_S2000x64 (ix2 r q) (ix2 (0 : Fin 1) q) (fun a => by
      match a with
      | ⟨0, _⟩ => rfl
      | ⟨1, _⟩ => rfl))

section

variable (V : (c : Dev nD) → (b : Ref sig .tc) → Buf (Elt Ideal) ((c : Thread nD τ).loc b))

/-- Where the windows' blocks sit, decided over the 25 points: the feature block and the result block at rows
    2000·t, the weight block and the bias row at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The feature window's block at point t, at (r, k): the array at row 2000·t + r. -/
theorem xblk_apply (c : Dev nD) (t : Fin cfg4.N) (r : Fin 2000) (k : Fin 128) (i : S50000x128.Idx)
    (h0 : (i 0).val = t.val * 2000 + r.val) (h1 : (i 1).val = k.val) :
    (iblk4 V c 0 t : Vec Ideal S2000x128 .f32) (ix2 r k) = (V c main_v178 : S50000x128.Idx → EReal) i := by
  obtain ⟨e0, e1, -, -, -, -, -, -⟩ := idx_facts t
  unfold iblk4
  rw [View.read_apply]
  show (V c main_v178 : S50000x128.Idx → EReal) _ = (V c main_v178 : S50000x128.Idx → EReal) i
  refine congrArg _ (funext fun a => Fin.ext ?_)
  match a with
  | ⟨0, _⟩ => show win4_0.index t (0 : Fin 2) * 2000 + 1 * r.val = (i 0).val; rw [e0, h0]; omega
  | ⟨1, _⟩ => show win4_0.index t (1 : Fin 2) * 128 + 1 * k.val = (i 1).val; rw [e1, h1]; omega

/-- The weight window's block at any point is the weight array. -/
theorem wblk_apply (c : Dev nD) (t : Fin cfg4.N) (k : Fin 128) (q : Fin 64) :
    (iblk4 V c 1 t : Vec Ideal S128x64 .f32) (ix2 k q) = (V c main_arg10 : S128x64.Idx → EReal) (ix2 k q) := by
  obtain ⟨-, -, e2, e3, -, -, -, -⟩ := idx_facts t
  unfold iblk4
  rw [View.read_apply]
  show (V c main_arg10 : S128x64.Idx → EReal) _ = (V c main_arg10 : S128x64.Idx → EReal) (ix2 k q)
  refine congrArg _ (funext fun a => Fin.ext ?_)
  match a with
  | ⟨0, _⟩ => show win4_1.index t (0 : Fin 2) * 128 + 1 * k.val = k.val; rw [e2]; omega
  | ⟨1, _⟩ => show win4_1.index t (1 : Fin 2) * 64 + 1 * q.val = q.val; rw [e3]; omega

/-- The bias window's block at any point is the bias row. -/
theorem bblk_apply (c : Dev nD) (t : Fin cfg4.N) (q : Fin 64) :
    (iblk4 V c 2 t : Vec Ideal S1x64 .f32) (ix2 (0 : Fin 1) q) = (V c main_v179 : S1x64.Idx → EReal) (ix2 (0 : Fin 1) q) := by
  obtain ⟨-, -, -, -, e4, e5, -, -⟩ := idx_facts t
  unfold iblk4
  rw [View.read_apply]
  show (V c main_v179 : S1x64.Idx → EReal) _ = (V c main_v179 : S1x64.Idx → EReal) (ix2 (0 : Fin 1) q)
  refine congrArg _ (funext fun a => Fin.ext ?_)
  match a with
  | ⟨0, _⟩ => show win4_2.index t (0 : Fin 2) * 1 + 1 * 0 = 0; rw [e4]
  | ⟨1, _⟩ => show win4_2.index t (1 : Fin 2) * 64 + 1 * q.val = q.val; rw [e5]; omega

/-- What point t writes back is block t of the product of the two arrays plus the bias row. -/
theorem flushed_eq (c : Dev nD) (t : Fin cfg4.N) :
    (dat4 V c).flushed 3 t = ((cfg4.win 3).blk t).view.read (Elt Ideal)
      (Cert.Prod.mmRow (M := 50000) (K := 128) (N := 64) (V c main_v178) (V c main_arg10) (V c main_v179)) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x64) hz, View.ld_unit_zero (S := S1x64) hz]
  obtain ⟨-, -, -, -, -, -, e6, e7⟩ := idx_facts t
  funext j
  obtain ⟨r, q, rfl⟩ : ∃ (r : Fin 2000) (q : Fin 64), j = ix2 r q := ⟨j 0, j 1, eq_ix2 j⟩
  have hr : r.val < 2000 := r.isLt
  have ht : t.val < 25 := lt_of_lt_of_eq t.isLt N_4
  show k4_pay1 (iblk4 V c 0 t) (iblk4 V c 1 t) (iblk4 V c 2 t) (ix2 r q)
    = Cert.Prod.mmRow (M := 50000) (K := 128) (N := 64) (V c main_v178) (V c main_arg10) (V c main_v179)
        (((cfg4.win 3).blk t).view.emb (ix2 r q))
  have hemb : ((cfg4.win 3).blk t).view.emb (ix2 r q) = ix2 (⟨t.val * 2000 + r.val, by omega⟩ : Fin 50000) q := by
    funext a; apply Fin.ext
    match a with
    | ⟨0, _⟩ => show win4_3.index t (0 : Fin 2) * 2000 + 1 * r.val = t.val * 2000 + r.val; rw [e6]; omega
    | ⟨1, _⟩ => show win4_3.index t (1 : Fin 2) * 64 + 1 * q.val = q.val; rw [e7]; omega
  rw [hemb, Cert.Prod.mmRow_ix2, pay_apply _ _ _ r q, bblk_apply V c t q]
  refine congrArg (· + _) (Finset.sum_congr rfl fun k _ => ?_)
  rw [xblk_apply V c t r k (ix2 (⟨t.val * 2000 + r.val, by omega⟩ : Fin 50000) k) rfl rfl, wblk_apply V c t k q]

/-- An index of the array is in point t's block iff each coordinate is in the block's range on its axis. -/
theorem mem_blk (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v180).slice (win4_3.rect t)).set ↔ _
  rw [View.set_slice_whole, Rect.mem_set_unit]
  exact Iff.rfl

/-- The result array after the pipeline: the product of the feature array and the weight array plus the bias row,
    the three arrays as the pipeline found them. -/
theorem final (c : Dev nD) : (dat4 V c).arrAt 3 cfg4.N
    = Cert.Prod.mmRow (M := 50000) (K := 128) (N := 64) (V c main_v178) (V c main_arg10) (V c main_v179) :=
  (dat4 V c).arrAt_eq_of_cover 3 _ (fun t _ => flushed_eq V c t) fun i => by
    have h0 : (i 0).val < 50000 := (i 0).isLt
    have h1 : (i 1).val < 64 := (i 1).isLt
    have hN : cfg4.N = 25 := N_4
    refine ⟨⟨(i 0).val / 2000, by rw [hN]; omega⟩, flush4_3 _, ?_⟩
    rw [mem_blk]
    obtain ⟨-, -, -, -, -, -, e6, e7⟩ := idx_facts ⟨(i 0).val / 2000, by rw [hN]; omega⟩
    intro a
    match a with
    | ⟨0, _⟩ => show win4_3.index _ (0 : Fin 2) * 2000 ≤ (i 0).val ∧ (i 0).val < win4_3.index _ (0 : Fin 2) * 2000 + 2000; rw [e6]; show (i 0).val / 2000 * 2000 ≤ (i 0).val ∧ (i 0).val < (i 0).val / 2000 * 2000 + 2000; omega
    | ⟨1, _⟩ => show win4_3.index _ (1 : Fin 2) * 64 ≤ (i 1).val ∧ (i 1).val < win4_3.index _ (1 : Fin 2) * 64 + 64; rw [e7]; omega

end

end Cert.KernelIdeal.Dense4

end
-- ==== Proof.Chain.lean ====
/-
  The idealized kernel's result as the network of its argument arrays.

  The buffers' contents at the boundaries between segments are a fold from the launch memory. Followed for the few
  buffers the computation passes through: the first stretch leaves the two endpoint rows; each pipeline leaves the
  rows-by-columns product of its feature array and its weight array; each later stretch leaves the layer's value
  of that product, the endpoint rows and the layer's bias (then `max · 0`, except after the last layer); the head's
  pipeline leaves the product plus the bias row. An endpoint row, a weight array or a bias is written by nothing
  after the first stretch, so wherever it is read it still holds what the launch memory or the first stretch gave
  it. Composed, the result array holds the four-layer network with the rows-by-columns products.
-/
import proofs.«130606_j22308060136220_1_alg».proof.Proof.Gen.KernelIdeal.Frame
import proofs.«130606_j22308060136220_1_alg».proof.Proof.Net
import proofs.«130606_j22308060136220_1_alg».proof.Proof.Prod
import proofs.«130606_j22308060136220_1_alg».proof.Proof.Host0
import proofs.«130606_j22308060136220_1_alg».proof.Proof.Host1
import proofs.«130606_j22308060136220_1_alg».proof.Proof.Host2
import proofs.«130606_j22308060136220_1_alg».proof.Proof.Host3
import proofs.«130606_j22308060136220_1_alg».proof.Proof.Host4
import proofs.«130606_j22308060136220_1_alg».proof.Proof.Dense0
import proofs.«130606_j22308060136220_1_alg».proof.Proof.Dense1
import proofs.«130606_j22308060136220_1_alg».proof.Proof.Dense2
import proofs.«130606_j22308060136220_1_alg».proof.Proof.Dense3
import proofs.«130606_j22308060136220_1_alg».proof.Proof.Dense4
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx

/-- The layer's value depends only on its four operands. -/
theorem layer_congr {hw hw' : (⟨S50000x128, .f32⟩ : BufTy).Contents (Elt Ideal)} {s s' d d' : (⟨S800000, .i32⟩ : BufTy).Contents (Elt Ideal)}
    {b b' : (⟨S128, .f32⟩ : BufTy).Contents (Elt Ideal)} (h1 : hw = hw') (h2 : s = s') (h3 : d = d') (h4 : b = b') :
    Cert.Net.layer hw s d b = Cert.Net.layer hw' s' d' b' := by
  subst h1 h2 h3 h4; rfl

/-- A bias given as the [64] array reshaped to one row is the bias per column. -/
theorem mmRow_reshape (x : (⟨S50000x128, .f32⟩ : BufTy).Contents (Elt Ideal)) (w : (⟨S128x64, .f32⟩ : BufTy).Contents (Elt Ideal))
    (b : (⟨S64, .f32⟩ : BufTy).Contents (Elt Ideal)) :
    Cert.Prod.mmRow (M := 50000) (K := 128) (N := 64) x w (shapeCast S1x64 b shapeCasts_S64_S1x64)
      = Cert.Prod.mmBias (M := 50000) (K := 128) (N := 64) x w b := by
  funext i
  obtain ⟨a, q, rfl⟩ : ∃ (a : Fin 50000) (q : Fin 64), i = ix2 a q := ⟨i 0, i 1, eq_ix2 i⟩
  rw [Cert.Prod.mmRow_ix2, Cert.Prod.mmBias_ix2]
  refine congrArg (_ + ·) ?_
  exact shapeCast_apply b shapeCasts_S64_S1x64 (ix2 (0 : Fin 1) q) (ix1 q)
    (by rewrite [Shape.rowMajor_val_one, Shape.rowMajor_val_two]; show q.val = 0 * 64 + q.val; omega)

variable (m : (ℓ : Loc nD τ sig) → Buf (Elt Ideal) ℓ) (ρ : Dev nD → PrngReg) (c : Dev nD)

/-! ## The values the computation passes through, as functions of the argument arrays -/

def proj0 : (⟨S50000x128, .f32⟩ : BufTy).Contents (Elt Ideal) :=
  Cert.Prod.mm (M := 50000) (K := 128) (N := 128) (m ((c : Thread nD τ).loc main_arg0)) (m ((c : Thread nD τ).loc main_arg2))
def feat1 : (⟨S50000x128, .f32⟩ : BufTy).Contents (Elt Ideal) :=
  Cert.Net.relu (Cert.Net.layer (proj0 m c) (Cert.Net.srcRow (m ((c : Thread nD τ).loc main_arg1))) (Cert.Net.dstRow (m ((c : Thread nD τ).loc main_arg1))) (m ((c : Thread nD τ).loc main_arg3)))
def proj1 : (⟨S50000x128, .f32⟩ : BufTy).Contents (Elt Ideal) :=
  Cert.Prod.mm (M := 50000) (K := 128) (N := 128) (feat1 m c) (m ((c : Thread nD τ).loc main_arg4))
def feat2 : (⟨S50000x128, .f32⟩ : BufTy).Contents (Elt Ideal) :=
  Cert.Net.relu (Cert.Net.layer (proj1 m c) (Cert.Net.srcRow (m ((c : Thread nD τ).loc main_arg1))) (Cert.Net.dstRow (m ((c : Thread nD τ).loc main_arg1))) (m ((c : Thread nD τ).loc main_arg5)))
def proj2 : (⟨S50000x128, .f32⟩ : BufTy).Contents (Elt Ideal) :=
  Cert.Prod.mm (M := 50000) (K := 128) (N := 128) (feat2 m c) (m ((c : Thread nD τ).loc main_arg6))
def feat3 : (⟨S50000x128, .f32⟩ : BufTy).Contents (Elt Ideal) :=
  Cert.Net.relu (Cert.Net.layer (proj2 m c) (Cert.Net.srcRow (m ((c : Thread nD τ).loc main_arg1))) (Cert.Net.dstRow (m ((c : Thread nD τ).loc main_arg1))) (m ((c : Thread nD τ).loc main_arg7)))
def proj3 : (⟨S50000x128, .f32⟩ : BufTy).Contents (Elt Ideal) :=
  Cert.Prod.mm (M := 50000) (K := 128) (N := 128) (feat3 m c) (m ((c : Thread nD τ).loc main_arg8))
def feat4 : (⟨S50000x128, .f32⟩ : BufTy).Contents (Elt Ideal) :=
  Cert.Net.layer (proj3 m c) (Cert.Net.srcRow (m ((c : Thread nD τ).loc main_arg1))) (Cert.Net.dstRow (m ((c : Thread nD τ).loc main_arg1))) (m ((c : Thread nD τ).loc main_arg9))
def result : (⟨S50000x64, .f32⟩ : BufTy).Contents (Elt Ideal) :=
  Cert.Prod.mmBias (M := 50000) (K := 128) (N := 64) (feat4 m c) (m ((c : Thread nD τ).loc main_arg10)) (m ((c : Thread nD τ).loc main_arg11))

/-- The composed value is the network over the rows-by-columns products. -/
theorem result_eq_net : result m c = Cert.Net.net
      (fun l r => Cert.Prod.mm (M := 50000) (K := 128) (N := 128) l r)
      (fun h W b => Cert.Prod.mmBias (M := 50000) (K := 128) (N := 64) h W b)
      (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11)) := rfl

/-! ## Buffers nothing writes after the first stretch -/

/-- After the first stretch a buffer it does not write is at the launch memory. -/
theorem at1 (b : Ref sig .tc) (h : b ∉ Host0.written) :
    W1 m ρ c (Proc.devRef .tc b) = m ((c : Thread nD τ).loc b) :=
  Host0.keep (W0 m ρ c) b h

theorem src1 : W1 m ρ c (Proc.devRef .tc main_v1) = Cert.Net.srcRow (m ((c : Thread nD τ).loc main_arg1)) := Host0.src (W0 m ρ c)
theorem dst1 : W1 m ρ c (Proc.devRef .tc main_v3) = Cert.Net.dstRow (m ((c : Thread nD τ).loc main_arg1)) := Host0.dst (W0 m ρ c)

theorem to2 (b : Ref sig .tc) (h0 : ∀ w, Pipeline.arrRef spec0 w ≠ b) :
    W2 m ρ c (Proc.devRef .tc b) = W1 m ρ c (Proc.devRef .tc b) := W2_of_ne m ρ c b h0
theorem to5 (b : Ref sig .tc) (h0 : ∀ w, Pipeline.arrRef spec0 w ≠ b) (h1 : b ∉ Host1.written) :
    W5 m ρ c (Proc.devRef .tc b) = W1 m ρ c (Proc.devRef .tc b) :=
  (Host1.keep (W2 m ρ c) b h1).trans (to2 m ρ c b h0)
theorem to6 (b : Ref sig .tc) (h0 : ∀ w, Pipeline.arrRef spec0 w ≠ b) (h1 : b ∉ Host1.written)
    (h2 : ∀ w, Pipeline.arrRef spec1 w ≠ b) :
    W6 m ρ c (Proc.devRef .tc b) = W1 m ρ c (Proc.devRef .tc b) :=
  (W6_of_ne m ρ c b h2).trans (to5 m ρ c b h0 h1)
theorem to9 (b : Ref sig .tc) (h0 : ∀ w, Pipeline.arrRef spec0 w ≠ b) (h1 : b ∉ Host1.written)
    (h2 : ∀ w, Pipeline.arrRef spec1 w ≠ b) (h3 : b ∉ Host2.written) :
    W9 m ρ c (Proc.devRef .tc b) = W1 m ρ c (Proc.devRef .tc b) :=
  (Host2.keep (W6 m ρ c) b h3).trans (to6 m ρ c b h0 h1 h2)
theorem to10 (b : Ref sig .tc) (h0 : ∀ w, Pipeline.arrRef spec0 w ≠ b) (h1 : b ∉ Host1.written)
    (h2 : ∀ w, Pipeline.arrRef spec1 w ≠ b) (h3 : b ∉ Host2.written) (h4 : ∀ w, Pipeline.arrRef spec2 w ≠ b) :
    W10 m ρ c (Proc.devRef .tc b) = W1 m ρ c (Proc.devRef .tc b) :=
  (W10_of_ne m ρ c b h4).trans (to9 m ρ c b h0 h1 h2 h3)
theorem to13 (b : Ref sig .tc) (h0 : ∀ w, Pipeline.arrRef spec0 w ≠ b) (h1 : b ∉ Host1.written)
    (h2 : ∀ w, Pipeline.arrRef spec1 w ≠ b) (h3 : b ∉ Host2.written) (h4 : ∀ w, Pipeline.arrRef spec2 w ≠ b)
    (h5 : b ∉ Host3.written) :
    W13 m ρ c (Proc.devRef .tc b) = W1 m ρ c (Proc.devRef .tc b) :=
  (Host3.keep (W10 m ρ c) b h5).trans (to10 m ρ c b h0 h1 h2 h3 h4)
theorem to14 (b : Ref sig .tc) (h0 : ∀ w, Pipeline.arrRef spec0 w ≠ b) (h1 : b ∉ Host1.written)
    (h2 : ∀ w, Pipeline.arrRef spec1 w ≠ b) (h3 : b ∉ Host2.written) (h4 : ∀ w, Pipeline.arrRef spec2 w ≠ b)
    (h5 : b ∉ Host3.written) (h6 : ∀ w, Pipeline.arrRef spec3 w ≠ b) :
    W14 m ρ c (Proc.devRef .tc b) = W1 m ρ c (Proc.devRef .tc b) :=
  (W14_of_ne m ρ c b h6).trans (to13 m ρ c b h0 h1 h2 h3 h4 h5)

/-! ## The feature buffers, boundary by boundary -/

theorem v_proj0 : W2 m ρ c (Proc.devRef .tc main_v5) = proj0 m c :=
  (W2_arr m ρ c 3).trans ((Dense0.final (V1 m ρ) c).trans
    (congrArg₂ (Cert.Prod.mm (M := 50000) (K := 128) (N := 128))
      (at1 m ρ c main_arg0 (by decide)) (at1 m ρ c main_arg2 (by decide))))

theorem v_feat1 : W5 m ρ c (Proc.devRef .tc main_v47) = feat1 m c :=
  (Host1.out (W2 m ρ c)).trans (congrArg Cert.Net.relu (layer_congr (v_proj0 m ρ c)
    ((to2 m ρ c main_v1 (by decide)).trans (src1 m ρ c))
    ((to2 m ρ c main_v3 (by decide)).trans (dst1 m ρ c))
    ((to2 m ρ c main_arg3 (by decide)).trans (at1 m ρ c main_arg3 (by decide)))))

theorem v_proj1 : W6 m ρ c (Proc.devRef .tc main_v49) = proj1 m c :=
  (W6_arr m ρ c 3).trans ((Dense1.final (V5 m ρ) c).trans
    (congrArg₂ (Cert.Prod.mm (M := 50000) (K := 128) (N := 128))
      (v_feat1 m ρ c) ((to5 m ρ c main_arg4 (by decide) (by decide)).trans (at1 m ρ c main_arg4 (by decide)))))

theorem v_feat2 : W9 m ρ c (Proc.devRef .tc main_v91) = feat2 m c :=
  (Host2.out (W6 m ρ c)).trans (congrArg Cert.Net.relu (layer_congr (v_proj1 m ρ c)
    ((to6 m ρ c main_v1 (by decide) (by decide) (by decide)).trans (src1 m ρ c))
    ((to6 m ρ c main_v3 (by decide) (by decide) (by decide)).trans (dst1 m ρ c))
    ((to6 m ρ c main_arg5 (by decide) (by decide) (by decide)).trans (at1 m ρ c main_arg5 (by decide)))))

theorem v_proj2 : W10 m ρ c (Proc.devRef .tc main_v93) = proj2 m c :=
  (W10_arr m ρ c 3).trans ((Dense2.final (V9 m ρ) c).trans
    (congrArg₂ (Cert.Prod.mm (M := 50000) (K := 128) (N := 128))
      (v_feat2 m ρ c)
      ((to9 m ρ c main_arg6 (by decide) (by decide) (by decide) (by decide)).trans (at1 m ρ c main_arg6 (by decide)))))

theorem v_feat3 : W13 m ρ c (Proc.devRef .tc main_v135) = feat3 m c :=
  (Host3.out (W10 m ρ c)).trans (congrArg Cert.Net.relu (layer_congr (v_proj2 m ρ c)
    ((to10 m ρ c main_v1 (by decide) (by decide) (by decide) (by decide) (by decide)).trans (src1 m ρ c))
    ((to10 m ρ c main_v3 (by decide) (by decide) (by decide) (by decide) (by decide)).trans (dst1 m ρ c))
    ((to10 m ρ c main_arg7 (by decide) (by decide) (by decide) (by decide) (by decide)).trans (at1 m ρ c main_arg7 (by decide)))))

theorem v_proj3 : W14 m ρ c (Proc.devRef .tc main_v137) = proj3 m c :=
  (W14_arr m ρ c 3).trans ((Dense3.final (V13 m ρ) c).trans
    (congrArg₂ (Cert.Prod.mm (M := 50000) (K := 128) (N := 128))
      (v_feat3 m ρ c)
      ((to13 m ρ c main_arg8 (by decide) (by decide) (by decide) (by decide) (by decide) (by decide)).trans
        (at1 m ρ c main_arg8 (by decide)))))

theorem v_feat4 : W15 m ρ c (Proc.devRef .tc main_v178) = feat4 m c :=
  (Host4.out (W14 m ρ c)).trans (layer_congr (v_proj3 m ρ c)
    ((to14 m ρ c main_v1 (by decide) (by decide) (by decide) (by decide) (by decide) (by decide) (by decide)).trans (src1 m ρ c))
    ((to14 m ρ c main_v3 (by decide) (by decide) (by decide) (by decide) (by decide) (by decide) (by decide)).trans (dst1 m ρ c))
    ((to14 m ρ c main_arg9 (by decide) (by decide) (by decide) (by decide) (by decide) (by decide) (by decide)).trans
      (at1 m ρ c main_arg9 (by decide))))

theorem v_weight : W15 m ρ c (Proc.devRef .tc main_arg10) = (m ((c : Thread nD τ).loc main_arg10)) :=
  (Host4.keep (W14 m ρ c) main_arg10 (by decide)).trans
    ((to14 m ρ c main_arg10 (by decide) (by decide) (by decide) (by decide) (by decide) (by decide) (by decide)).trans
      (at1 m ρ c main_arg10 (by decide)))

theorem v_bias : W15 m ρ c (Proc.devRef .tc main_v179) = shapeCast S1x64 (m ((c : Thread nD τ).loc main_arg11)) shapeCasts_S64_S1x64 :=
  (Host4.bias (W14 m ρ c)).trans (congrArg (fun b => shapeCast S1x64 b shapeCasts_S64_S1x64)
    ((to14 m ρ c main_arg11 (by decide) (by decide) (by decide) (by decide) (by decide) (by decide) (by decide)).trans
      (at1 m ρ c main_arg11 (by decide))))

/-- The result array after the last pipeline is the composed value. -/
theorem v_result : W16 m ρ c (Proc.devRef .tc main_v180) = result m c :=
  (W16_arr m ρ c 3).trans ((Dense4.final (V15 m ρ) c).trans
    ((congr (congrArg₂ (Cert.Prod.mmRow (M := 50000) (K := 128) (N := 64)) (v_feat4 m ρ c) (v_weight m ρ c)) (v_bias m ρ c)).trans
      (mmRow_reshape (feat4 m c) (m ((c : Thread nD τ).loc main_arg10)) (m ((c : Thread nD τ).loc main_arg11)))))

end Cert.KernelIdeal.Chain

end
-- ==== Proof.RefNet.lean ====
/-
  The plain program's result is the network over the host's matrix products; and on the extended reals the host's
  matrix product at entry (r, c) is the sum over k of the row's entries times the column's, so the plain program's
  dense projection and head are the rows-by-columns functions.
-/
import proofs.«130606_j22308060136220_1_alg».proof.Proof.Gen.ReferenceIdeal.Run
import proofs.«130606_j22308060136220_1_alg».proof.Proof.Gen.ReferenceIdeal.Read
import proofs.«130606_j22308060136220_1_alg».proof.Proof.Net
import proofs.«130606_j22308060136220_1_alg».proof.Proof.Prod
import proofs.«130606_j22308060136220_1_alg».proof.Proof.LibDot
import Idealize.ShloMosaic.Lib.Pipeline.Value
import Idealize.ShloMosaic.Lib.ValueIdx

set_option maxRecDepth 16384

noncomputable section

namespace Cert.RefNet

open Cert.ReferenceIdeal Cert.ReferenceIdeal.Gen Cert.ReferenceIdeal.Value
open Idealize.ShloMosaic Idealize.ShloMosaic.TcCoe Idealize.SL.Sem Idealize.ShloMosaic.ValueIdx

/-- The plain program's result term is the network of its twelve argument arrays, over the host's products. -/
theorem res_eq {F : FTy → Type} [FloatOps F] (m : (ℓ : Loc nD τ sig) → Buf (Elt F) ℓ) (c : Dev nD) :
    res_main_v178 m c = Cert.Net.net Cert.Net.hostDense Cert.Net.hostHead
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11)) := by
  unfold res_main_v178
  rfl

/-- The 128-wide product's dimension numbers contract the left operand's columns with the right operand's rows. -/
theorem plain128 : Cert.LibDot.Plain dot_S50000x128_S128x128_S50000x128_1_0_0_1_n_n :=
  ⟨rfl, rfl, Cert.ReferenceIdeal.Read.lhs_main_v4_0, Cert.ReferenceIdeal.Read.lhs_main_v4_1,
    Cert.ReferenceIdeal.Read.rhs_main_v4_0, Cert.ReferenceIdeal.Read.rhs_main_v4_1⟩

/-- The head's product likewise. -/
theorem plain64 : Cert.LibDot.Plain dot_S50000x128_S128x64_S50000x64_1_0_0_1_n_n :=
  ⟨rfl, rfl, Cert.ReferenceIdeal.Read.lhs_main_v175_0, Cert.ReferenceIdeal.Read.lhs_main_v175_1,
    Cert.ReferenceIdeal.Read.rhs_main_v175_0, Cert.ReferenceIdeal.Read.rhs_main_v175_1⟩

/-- The host's dense projection is rows by columns. -/
theorem hostDense_eq (l : (⟨S50000x128, .f32⟩ : BufTy).Contents (Elt Ideal)) (r : (⟨S128x128, .f32⟩ : BufTy).Contents (Elt Ideal)) :
    Cert.Net.hostDense (F := Ideal) l r = Cert.Prod.mm (M := 50000) (K := 128) (N := 128) l r := by
  funext i
  obtain ⟨a, b, rfl⟩ : ∃ (a : Fin 50000) (b : Fin 128), i = ix2 a b := ⟨i 0, i 1, eq_ix2 i⟩
  exact Cert.LibDot.dotGeneral_ix2 plain128 none l r a b

/-- The host's head is rows by columns plus the bias per column. -/
theorem hostHead_eq (h : (⟨S50000x128, .f32⟩ : BufTy).Contents (Elt Ideal)) (W : (⟨S128x64, .f32⟩ : BufTy).Contents (Elt Ideal))
    (b : (⟨S64, .f32⟩ : BufTy).Contents (Elt Ideal)) :
    Cert.Net.hostHead (F := Ideal) h W b = Cert.Prod.mmBias (M := 50000) (K := 128) (N := 64) h W b := by
  funext i
  obtain ⟨a, q, rfl⟩ : ∃ (a : Fin 50000) (q : Fin 64), i = ix2 a q := ⟨i 0, i 1, eq_ix2 i⟩
  refine (addf_apply _ _ _).trans ?_
  exact congrArg₂ (· + ·) (Cert.LibDot.dotGeneral_ix2 plain64 none h W a q)
    ((broadcastInDim_apply ![0, 1] bcast_S1x64_S50000x64_0_1 _ (ix2 a q) (ix2 (0 : Fin 1) q) (fun d => by
        match d with
        | ⟨0, _⟩ => rfl
        | ⟨1, _⟩ => rfl)).trans
      (broadcastInDim_apply ![1] bcast_S64_S1x64_1 b (ix2 (0 : Fin 1) q) (ix1 q) (fun d => by
        match d with
        | ⟨0, _⟩ => rfl)))

end Cert.RefNet

end
-- ==== Proof.lean ====
/-
  A four-layer graph convolution network with a linear head, on 50000 nodes with 128 features and 800000 edges:
  the tiled program against the plain one, on the extended reals.

  Both programs run the same host operations between the dense projections: degrees by a scatter-add of ones over
  the destination list (with one self-loop per node), `rsqrt (max deg 1)`, a coefficient per list entry, the source
  rows gathered and scaled, a scatter-add into the destination rows, the bias, `max · 0` after the first three
  layers. They differ only in the five dense projections. The plain program takes the host's matrix product of the
  whole [50000, 128] array. The tiled program runs a pipeline over 25 blocks of 2000 rows; each block's body changes
  the float format of its operands, which is the identity on the extended reals, and takes the block's matrix product
  into a zero accumulator (the head's body also adds the bias row). Entry (r, c) of either product is the sum over k
  of x(r, k) · w(k, c), and the blocks tile the rows, so the two programs compute one function of the twelve argument
  arrays. No finiteness of the inputs is used: the two sides are the same sums of the same products.

  The three frame claims are the generated frames (the plain program's is its generated run with the result
  dropped); the idealization rewrote nothing, so `preserves` is trivial; `algebraic` puts the two runs side by side.
-/
import proofs.«130606_j22308060136220_1_alg».proof.Defs
import proofs.«130606_j22308060136220_1_alg».proof.Proof.Gen.Kernel
import proofs.«130606_j22308060136220_1_alg».proof.Proof.Gen.Kernel.Skeleton
import proofs.«130606_j22308060136220_1_alg».proof.Proof.Gen.Kernel.Launch
import proofs.«130606_j22308060136220_1_alg».proof.Proof.Gen.Kernel.Points
import proofs.«130606_j22308060136220_1_alg».proof.Proof.Gen.Kernel.Frame
import proofs.«130606_j22308060136220_1_alg».proof.Proof.Gen.KernelIdeal
import proofs.«130606_j22308060136220_1_alg».proof.Proof.Gen.KernelIdeal.Skeleton
import proofs.«130606_j22308060136220_1_alg».proof.Proof.Gen.KernelIdeal.Launch
import proofs.«130606_j22308060136220_1_alg».proof.Proof.Gen.KernelIdeal.Points
import proofs.«130606_j22308060136220_1_alg».proof.Proof.Gen.KernelIdeal.Frame
import proofs.«130606_j22308060136220_1_alg».proof.Proof.Gen.ReferenceIdeal
import proofs.«130606_j22308060136220_1_alg».proof.Proof.Gen.ReferenceIdeal.Run
import proofs.«130606_j22308060136220_1_alg».proof.Proof.Gen.ReferenceIdeal.Read
import proofs.«130606_j22308060136220_1_alg».proof.Proof.Gen.Pre_finite_inputs
import proofs.«130606_j22308060136220_1_alg».proof.Proof.KRun
import proofs.«130606_j22308060136220_1_alg».proof.Proof.Chain
import proofs.«130606_j22308060136220_1_alg».proof.Proof.RefNet
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The host's dense projection and head, as functions, are the rows-by-columns ones. -/
theorem dense_fun : (Cert.Net.hostDense (F := Ideal))
    = fun l r => Cert.Prod.mm (M := 50000) (K := 128) (N := 128) l r :=
  funext fun l => funext fun r => Cert.RefNet.hostDense_eq l r

theorem head_fun : (Cert.Net.hostHead (F := Ideal))
    = fun h W b => Cert.Prod.mmBias (M := 50000) (K := 128) (N := 64) h W b :=
  funext fun h => funext fun W => funext fun b => Cert.RefNet.hostHead_eq h W b

/-- Both runs end with the result array at the network of the argument arrays: the tiled program's through the
    boundaries' fold, the plain program's as its composed term, and the two networks differ only in how the dense
    products are written. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun _ h c => ⟨(h c).1.trans (Cert.KernelIdeal.Chain.v_result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    show Cert.ReferenceIdeal.Value.res_main_v178 m' c = Cert.KernelIdeal.Chain.result m c
    rw [Cert.RefNet.res_eq m' c, Cert.KernelIdeal.Chain.result_eq_net m c,
      a0, a1, a2, a3, a4, a5, a6, a7, a8, a9, a10, a11, dense_fun, head_fun]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
